-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S600000 : Shape := ⟨1, ![600000]⟩
abbrev S50000 : Shape := ⟨1, ![50000]⟩
abbrev S5x128 : Shape := ⟨2, ![5, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg17 : FVec F S64 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg14 : FVec F S128 .f32) (main_arg15 : FVec F S128 .f32) (main_arg16 : FVec F S128x64 .f32) (main_arg17 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg16
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg17 main_v63 main_v67

def fn_part2 {F : FTy → Type} [FloatOps F] (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_v48 main_v49 main_v50

def fn_part1 {F : FTy → Type} [FloatOps F] (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S50000x5 .f32) (main_arg1 : IVec S600000 32) (main_arg2 : IVec S600000 32) (main_arg3 : IVec S50000 32) (main_arg4 : FVec F S5x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128x64 .f32) (main_arg17 : FVec F S64 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S5x128 .f32 := Host.absf main_arg4
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S50000x5 : Shape := ⟨2, ![50000, 5]⟩
abbrev S600000 : Shape := ⟨1, ![600000]⟩
abbrev S50000 : Shape := ⟨1, ![50000]⟩
abbrev S5x128 : Shape := ⟨2, ![5, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S650000 : Shape := ⟨1, ![650000]⟩
abbrev S_ : Shape := ⟨0, ![]⟩
abbrev S650000x1 : Shape := ⟨2, ![650000, 1]⟩
abbrev S50000x128 : Shape := ⟨2, ![50000, 128]⟩
abbrev S5000x5 : Shape := ⟨2, ![5000, 5]⟩
abbrev S5000x128 : Shape := ⟨2, ![5000, 128]⟩
abbrev S650000x128 : Shape := ⟨2, ![650000, 128]⟩
abbrev S1x128 : Shape := ⟨2, ![1, 128]⟩
abbrev S64x128 : Shape := ⟨2, ![64, 128]⟩
abbrev S50000x1 : Shape := ⟨2, ![50000, 1]⟩
abbrev S64x1 : Shape := ⟨2, ![64, 1]⟩
abbrev S64x64 : Shape := ⟨2, ![64, 64]⟩
abbrev S1x64 : Shape := ⟨2, ![1, 64]⟩

abbrev nBuf : Space → Nat
  | .hbm => 150
  | .vmem => 36
  | .smem => 0
  | _ => 0

abbrev hbmTy0_0 (i : Nat) : BufTy := match i % 128 with
  | 0 => ⟨S50000x5, .f32⟩
  | 1 => ⟨S600000, .i32⟩
  | 2 => ⟨S600000, .i32⟩
  | 3 => ⟨S50000, .i32⟩
  | 4 => ⟨S5x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128x64, .f32⟩
  | 17 => ⟨S64, .f32⟩
  | 18 => ⟨S50000, .i32⟩
  | 19 => ⟨S650000, .i32⟩
  | 20 => ⟨S650000, .i32⟩
  | 21 => ⟨S_, .f32⟩
  | 22 => ⟨S650000, .f32⟩
  | 23 => ⟨S_, .f32⟩
  | 24 => ⟨S50000, .f32⟩
  | 25 => ⟨S650000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S650000, .i32⟩
  | 37 => ⟨S650000, .i1⟩
  | 38 => ⟨S_, .i32⟩
  | 39 => ⟨S650000, .i32⟩
  | 40 => ⟨S650000, .i32⟩
  | 41 => ⟨S650000, .i32⟩
  | 42 => ⟨S650000x1, .i32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000, .f32⟩
  | 53 => ⟨S650000, .f32⟩
  | 54 => ⟨S650000x1, .f32⟩
  | 55 => ⟨S50000x128, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000x128, .f32⟩
  | 65 => ⟨S650000x128, .f32⟩
  | 66 => ⟨S650000x128, .f32⟩
  | 67 => ⟨S_, .f32⟩
  | 68 => ⟨S50000x128, .f32⟩
  | 69 => ⟨S650000x1, .i32⟩
  | 70 => ⟨S50000x128, .f32⟩
  | 71 => ⟨S_, .f32⟩
  | 72 => ⟨S_, .f32⟩
  | 73 => ⟨S128, .f32⟩
  | 74 => ⟨S128, .f32⟩
  | 75 => ⟨S128, .f32⟩
  | 76 => ⟨S128, .f32⟩
  | 77 => ⟨S1x128, .f32⟩
  | 78 => ⟨S1x128, .f32⟩
  | 79 => ⟨S50000x128, .f32⟩
  | 80 => ⟨S50000x128, .f32⟩
  | 81 => ⟨S_, .i32⟩
  | 82 => ⟨S650000, .i32⟩
  | 83 => ⟨S650000, .i1⟩
  | 84 => ⟨S_, .i32⟩
  | 85 => ⟨S650000, .i32⟩
  | 86 => ⟨S650000, .i32⟩
  | 87 => ⟨S650000, .i32⟩
  | 88 => ⟨S650000x1, .i32⟩
  | 89 => ⟨S650000x128, .f32⟩
  | 90 => ⟨S650000x128, .f32⟩
  | 91 => ⟨S650000x128, .f32⟩
  | 92 => ⟨S_, .f32⟩
  | 93 => ⟨S50000x128, .f32⟩
  | 94 => ⟨S650000x1, .i32⟩
  | 95 => ⟨S50000x128, .f32⟩
  | 96 => ⟨S_, .f32⟩
  | 97 => ⟨S_, .f32⟩
  | 98 => ⟨S128, .f32⟩
  | 99 => ⟨S128, .f32⟩
  | 100 => ⟨S128, .f32⟩
  | 101 => ⟨S128, .f32⟩
  | 102 => ⟨S1x128, .f32⟩
  | 103 => ⟨S1x128, .f32⟩
  | 104 => ⟨S50000x128, .f32⟩
  | 105 => ⟨S50000x128, .f32⟩
  | 106 => ⟨S_, .i32⟩
  | 107 => ⟨S650000, .i32⟩
  | 108 => ⟨S650000, .i1⟩
  | 109 => ⟨S_, .i32⟩
  | 110 => ⟨S650000, .i32⟩
  | 111 => ⟨S650000, .i32⟩
  | 112 => ⟨S650000, .i32⟩
  | 113 => ⟨S650000x1, .i32⟩
  | 114 => ⟨S650000x128, .f32⟩
  | 115 => ⟨S650000x128, .f32⟩
  | 116 => ⟨S650000x128, .f32⟩
  | 117 => ⟨S_, .f32⟩
  | 118 => ⟨S50000x128, .f32⟩
  | 119 => ⟨S650000x1, .i32⟩
  | 120 => ⟨S50000x128, .f32⟩
  | 121 => ⟨S_, .f32⟩
  | 122 => ⟨S_, .f32⟩
  | 123 => ⟨S128, .f32⟩
  | 124 => ⟨S128, .f32⟩
  | 125 => ⟨S128, .f32⟩
  | 126 => ⟨S128, .f32⟩
  | 127 => ⟨S1x128, .f32⟩
  | _ => ⟨S50000x5, .f32⟩

abbrev hbmTy0_1 (i : Nat) : BufTy := match i % 128 with
  | 0 => ⟨S1x128, .f32⟩
  | 1 => ⟨S50000x128, .f32⟩
  | 2 => ⟨S_, .f32⟩
  | 3 => ⟨S64x128, .f32⟩
  | 4 => ⟨S50000x1, .i32⟩
  | 5 => ⟨S64x128, .f32⟩
  | 6 => ⟨S_, .f32⟩
  | 7 => ⟨S50000, .f32⟩
  | 8 => ⟨S_, .f32⟩
  | 9 => ⟨S64, .f32⟩
  | 10 => ⟨S50000x1, .i32⟩
  | 11 => ⟨S64, .f32⟩
  | 12 => ⟨S_, .f32⟩
  | 13 => ⟨S64, .f32⟩
  | 14 => ⟨S64, .f32⟩
  | 15 => ⟨S64x1, .f32⟩
  | 16 => ⟨S64x128, .f32⟩
  | 17 => ⟨S64x128, .f32⟩
  | 18 => ⟨S64x64, .f32⟩
  | 19 => ⟨S1x64, .f32⟩
  | 20 => ⟨S64x64, .f32⟩
  | 21 => ⟨S64x64, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | .local _ .vmem, ⟨0, _⟩ => ⟨S5000x5, .f32⟩
  | .local _ .vmem, ⟨1, _⟩ => ⟨S5000x5, .f32⟩
  | .local _ .vmem, ⟨2, _⟩ => ⟨S5x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S64x128, .f32⟩
  | .local _ .vmem, ⟨34, _⟩ => ⟨S128x64, .f32⟩
  | .local _ .vmem, ⟨35, _⟩ => ⟨S64x64, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v10 : Ref sig .tc := ⟨.hbm, 34, rfl⟩
abbrev main_c : Ref sig .tc := ⟨.hbm, 35, rfl⟩
abbrev main_v11 : Ref sig .tc := ⟨.hbm, 36, rfl⟩
abbrev main_v12 : Ref sig .tc := ⟨.hbm, 37, rfl⟩
abbrev main_c_3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_c_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_9 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_10 : Ref sig .tc := ⟨.hbm, 81, rfl⟩
abbrev main_v49 : Ref sig .tc := ⟨.hbm, 82, rfl⟩
abbrev main_v50 : Ref sig .tc := ⟨.hbm, 83, rfl⟩
abbrev main_c_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_14 : Ref sig .tc := ⟨.hbm, 106, rfl⟩
abbrev main_v70 : Ref sig .tc := ⟨.hbm, 107, rfl⟩
abbrev main_v71 : Ref sig .tc := ⟨.hbm, 108, rfl⟩
abbrev main_c_15 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_16 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_17 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_18 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_19 : Ref sig .tc := ⟨.hbm, 134, rfl⟩
abbrev main_v93 : Ref sig .tc := ⟨.hbm, 135, rfl⟩
abbrev main_cst_20 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg1_0 : Ref sig .tc := ⟨.vmem, 34, rfl⟩
abbrev cc6_stg2_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem1_0 : DmaSem sig := 34
abbrev cc6_sem2_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S64x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

class Facts₀ : Prop where
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  inb_S5000x128_S5000x128_0_0 : ∀ a, (![0, 0] : Fin 2 → Nat) a + S5000x128.size a ≤ S5000x128.size a
  h_S5000x128 : 0 < S5000x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  inb_S64x64_S64x64_0_0 : ∀ a, (![0, 0] : Fin 2 → Nat) a + S64x64.size a ≤ S64x64.size a
  h_S64x64 : 0 < S64x64.numel
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x5_S5x128_S5000x128_1_0_0_1_n_n_wf : DotDims.WF S5000x5 S5x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S64x128.size a ≤ S64x128.size a
  hwx6_0 : ∀ i : grid6.Coords, EltTy.bits .f32 = 32 ∨ (Rect.block (s := S64x128) S64x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v101) S64x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg16) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v102) S64x64.size cc6_transform_2 reads6_2 true false 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x5 : Shape := ⟨2, ![50000, 5]⟩
abbrev S600000 : Shape := ⟨1, ![600000]⟩
abbrev S50000 : Shape := ⟨1, ![50000]⟩
abbrev S5x128 : Shape := ⟨2, ![5, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S650000 : Shape := ⟨1, ![650000]⟩
abbrev S_ : Shape := ⟨0, ![]⟩
abbrev S650000x1 : Shape := ⟨2, ![650000, 1]⟩
abbrev S50000x128 : Shape := ⟨2, ![50000, 128]⟩
abbrev S650000x128 : Shape := ⟨2, ![650000, 128]⟩
abbrev S1x128 : Shape := ⟨2, ![1, 128]⟩
abbrev S64x128 : Shape := ⟨2, ![64, 128]⟩
abbrev S50000x1 : Shape := ⟨2, ![50000, 1]⟩
abbrev S64x1 : Shape := ⟨2, ![64, 1]⟩
abbrev S64x64 : Shape := ⟨2, ![64, 64]⟩
abbrev S1x64 : Shape := ⟨2, ![1, 64]⟩

abbrev nBuf : Space → Nat
  | .hbm => 171
  | .vmem => 0
  | .smem => 0
  | _ => 0

abbrev hbmTy0_0 (i : Nat) : BufTy := match i % 128 with
  | 0 => ⟨S50000x5, .f32⟩
  | 1 => ⟨S600000, .i32⟩
  | 2 => ⟨S600000, .i32⟩
  | 3 => ⟨S50000, .i32⟩
  | 4 => ⟨S5x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128x64, .f32⟩
  | 17 => ⟨S64, .f32⟩
  | 18 => ⟨S50000, .i32⟩
  | 19 => ⟨S650000, .i32⟩
  | 20 => ⟨S650000, .i32⟩
  | 21 => ⟨S_, .f32⟩
  | 22 => ⟨S650000, .f32⟩
  | 23 => ⟨S_, .f32⟩
  | 24 => ⟨S50000, .f32⟩
  | 25 => ⟨S650000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S650000, .i32⟩
  | 37 => ⟨S650000, .i1⟩
  | 38 => ⟨S_, .i32⟩
  | 39 => ⟨S650000, .i32⟩
  | 40 => ⟨S650000, .i32⟩
  | 41 => ⟨S650000, .i32⟩
  | 42 => ⟨S650000x1, .i32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000, .f32⟩
  | 53 => ⟨S650000, .f32⟩
  | 54 => ⟨S650000x1, .f32⟩
  | 55 => ⟨S50000x128, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000x128, .f32⟩
  | 65 => ⟨S650000x128, .f32⟩
  | 66 => ⟨S650000x128, .f32⟩
  | 67 => ⟨S_, .f32⟩
  | 68 => ⟨S50000x128, .f32⟩
  | 69 => ⟨S650000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S_, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S_, .i32⟩
  | 89 => ⟨S650000, .i32⟩
  | 90 => ⟨S650000, .i1⟩
  | 91 => ⟨S_, .i32⟩
  | 92 => ⟨S650000, .i32⟩
  | 93 => ⟨S650000, .i32⟩
  | 94 => ⟨S650000, .i32⟩
  | 95 => ⟨S650000x1, .i32⟩
  | 96 => ⟨S650000x128, .f32⟩
  | 97 => ⟨S650000x128, .f32⟩
  | 98 => ⟨S650000x128, .f32⟩
  | 99 => ⟨S_, .f32⟩
  | 100 => ⟨S50000x128, .f32⟩
  | 101 => ⟨S650000x1, .i32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S_, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S_, .i32⟩
  | 121 => ⟨S650000, .i32⟩
  | 122 => ⟨S650000, .i1⟩
  | 123 => ⟨S_, .i32⟩
  | 124 => ⟨S650000, .i32⟩
  | 125 => ⟨S650000, .i32⟩
  | 126 => ⟨S650000, .i32⟩
  | 127 => ⟨S650000x1, .i32⟩
  | _ => ⟨S50000x5, .f32⟩

abbrev hbmTy0_1 (i : Nat) : BufTy := match i % 128 with
  | 0 => ⟨S650000x128, .f32⟩
  | 1 => ⟨S650000x128, .f32⟩
  | 2 => ⟨S650000x128, .f32⟩
  | 3 => ⟨S_, .f32⟩
  | 4 => ⟨S50000x128, .f32⟩
  | 5 => ⟨S650000x1, .i32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S_, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S_, .f32⟩
  | 24 => ⟨S64x128, .f32⟩
  | 25 => ⟨S50000x1, .i32⟩
  | 26 => ⟨S64x128, .f32⟩
  | 27 => ⟨S_, .f32⟩
  | 28 => ⟨S50000, .f32⟩
  | 29 => ⟨S_, .f32⟩
  | 30 => ⟨S64, .f32⟩
  | 31 => ⟨S50000x1, .i32⟩
  | 32 => ⟨S64, .f32⟩
  | 33 => ⟨S_, .f32⟩
  | 34 => ⟨S64, .f32⟩
  | 35 => ⟨S64, .f32⟩
  | 36 => ⟨S64x1, .f32⟩
  | 37 => ⟨S64x128, .f32⟩
  | 38 => ⟨S64x128, .f32⟩
  | 39 => ⟨S64x64, .f32⟩
  | 40 => ⟨S1x64, .f32⟩
  | 41 => ⟨S64x64, .f32⟩
  | 42 => ⟨S64x64, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v10 : Ref sig .tc := ⟨.hbm, 34, rfl⟩
abbrev main_c : Ref sig .tc := ⟨.hbm, 35, rfl⟩
abbrev main_v11 : Ref sig .tc := ⟨.hbm, 36, rfl⟩
abbrev main_v12 : Ref sig .tc := ⟨.hbm, 37, rfl⟩
abbrev main_c_3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_c_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call1_cst : Ref sig .tc := ⟨.hbm, 84, rfl⟩
abbrev main_call1_v0 : Ref sig .tc := ⟨.hbm, 85, rfl⟩
abbrev main_v52 : Ref sig .tc := ⟨.hbm, 86, rfl⟩
abbrev main_v53 : Ref sig .tc := ⟨.hbm, 87, rfl⟩
abbrev main_c_10 : Ref sig .tc := ⟨.hbm, 88, rfl⟩
abbrev main_v54 : Ref sig .tc := ⟨.hbm, 89, rfl⟩
abbrev main_v55 : Ref sig .tc := ⟨.hbm, 90, rfl⟩
abbrev main_c_11 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_12 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_13 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_call2_cst : Ref sig .tc := ⟨.hbm, 116, rfl⟩
abbrev main_call2_v0 : Ref sig .tc := ⟨.hbm, 117, rfl⟩
abbrev main_v78 : Ref sig .tc := ⟨.hbm, 118, rfl⟩
abbrev main_v79 : Ref sig .tc := ⟨.hbm, 119, rfl⟩
abbrev main_c_14 : Ref sig .tc := ⟨.hbm, 120, rfl⟩
abbrev main_v80 : Ref sig .tc := ⟨.hbm, 121, rfl⟩
abbrev main_v81 : Ref sig .tc := ⟨.hbm, 122, rfl⟩
abbrev main_c_15 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_16 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_17 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_call3_cst : Ref sig .tc := ⟨.hbm, 148, rfl⟩
abbrev main_call3_v0 : Ref sig .tc := ⟨.hbm, 149, rfl⟩
abbrev main_v104 : Ref sig .tc := ⟨.hbm, 150, rfl⟩
abbrev main_cst_18 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_19 : Ref sig .tc := ⟨.hbm, 155, rfl⟩
abbrev main_v108 : Ref sig .tc := ⟨.hbm, 156, rfl⟩
abbrev main_cst_20 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_21 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩

abbrev nD : Nat := 1
abbrev τ : Topo := Topo.v7x

variable {F : FTy → Type} [FloatOps F]

class Facts₀ : Prop where
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x5_S5x128_S50000x128_1_0_0_1_n_n_wf : DotDims.WF S50000x5 S5x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x5_S5x128_S50000x128_1_0_0_1_n_n : DotDims S50000x5 S5x128 S50000x128 where
  lhsContracting := [1]
  rhsContracting := [0]
  lhsNonContracting := [0]
  rhsNonContracting := [1]
  lhsBatch := []
  rhsBatch := []
  wf := dot_S50000x5_S5x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.KernelRun.lean ====
/-
  The idealized kernel program's run with its result named: every weakly fair execution of @main ends,
  without a fault, with the result buffer at what the last host stretch leaves there (the contents
  `W15` of the run's fold through the eight host stretches and the seven regions) and the argument
  arrays as launched. The run is the program's fifteen segments chained from the launch memory; the
  final thread state holds every unscoped buffer at `W15`, so the result buffer is read off it beside
  the arguments.
-/
import proofs.«124550_j48266842472715_1_alg».proof.Proof.Gen.KernelIdeal.Frame

set_option maxRecDepth 16384

noncomputable section

namespace Cert.Bridge.KernelRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer named beside the unchanged arguments. -/
theorem run_value : θ_run defs (onTc (τ := τ) (main (F := F))) ⟨m, fun _ => 0, ρ⟩ (fun r => ∀ c : Dev nD,
      r.2.mem ((c.tc : Thread nD τ).loc main_v105) = W15 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v105 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c)⟩)

end Cert.Bridge.KernelRun

end
-- ==== Proof.Shared.lean ====
/-
  The host computations the two programs share, each named once and spelt as both programs spell it:
  the edge lists extended by one self-loop per node, an index column with negative entries wrapped
  by the node count, the in-degree with self-loops and its inverse square root (zero where the degree
  is not positive), the per-edge normalisation column dinv[s]·dinv[d], the aggregation of a node
  matrix (gather the source rows, scale each by the edge's normalisation, add into the destination
  rows), one layer of the reference (add the bias, scale by g·rsqrt(1 + eps), shift, rectify), the
  mean pooling over graphs, and the final bias row.
-/
import proofs.«124550_j48266842472715_1_alg».proof.ReferenceIdeal
import Idealize.ShloMosaic.PureOps.Ideal

noncomputable section

namespace Cert.Bridge

open Idealize.ShloMosaic Cert.ReferenceIdeal Cert.ReferenceIdeal.Facts₀

variable {F : FTy → Type} [FloatOps F] [Cert.ReferenceIdeal.Facts₀]

/-- An edge endpoint list followed by the node numbers 0 … 49999 (one self-loop per node). -/
def withLoops (a : (⟨S600000, .i32⟩ : BufTy).Contents (Elt F)) : (⟨S650000, .i32⟩ : BufTy).Contents (Elt F) :=
  concatenate S650000 0 [⟨S600000, a⟩, ⟨S50000, (iotaInDim S50000 32 0)⟩] concatenates_S600000_S50000_S650000_d0

/-- An index list as a column. -/
def asCol (d : (⟨S650000, .i32⟩ : BufTy).Contents (Elt F)) : (⟨S650000x1, .i32⟩ : BufTy).Contents (Elt F) :=
  broadcastInDim S650000x1 ![0] bcast_S650000_S650000x1_0 d

/-- An index list with each negative entry raised by the node count, as a column. -/
def wrapCol (s : (⟨S650000, .i32⟩ : BufTy).Contents (Elt F)) : (⟨S650000x1, .i32⟩ : BufTy).Contents (Elt F) :=
  broadcastInDim S650000x1 ![0] bcast_S650000_S650000x1_0 (select (cmpi .slt s (broadcastInDim S650000 ![] bcast_S_S650000 (constantI S_ 32 0#32))) (addi s (broadcastInDim S650000 ![] bcast_S_S650000 (constantI S_ 32 50000#32))) s)

/-- The in-degree of every node: the count of list entries equal to it. -/
def degree (d : (⟨S650000, .i32⟩ : BufTy).Contents (Elt F)) : (⟨S50000, .f32⟩ : BufTy).Contents (Elt F) :=
  Host.scatterAdd scatter_S50000_S650000x1_S650000_n_0_0_1 (broadcastInDim S50000 ![] bcast_S_S50000 (constant S_ .f32 0x00000000#32)) (asCol d) (broadcastInDim S650000 ![] bcast_S_S650000 (constant S_ .f32 0x3F800000#32))

/-- degree^(-1/2) where the degree is positive, zero elsewhere. -/
def invSqrtDegree (d : (⟨S650000, .i32⟩ : BufTy).Contents (Elt F)) : (⟨S50000, .f32⟩ : BufTy).Contents (Elt F) :=
  select (cmpf (F := F) .ogt (degree d) (broadcastInDim S50000 ![] bcast_S_S50000 (constant S_ .f32 0x00000000#32))) (Host.rsqrt (degree d)) (broadcastInDim S50000 ![] bcast_S_S50000 (id (constant S_ .f32 0x00000000#32)))

/-- The normalisation of every edge, dinv[s] · dinv[d], as a column. -/
def normCol (s d : (⟨S650000, .i32⟩ : BufTy).Contents (Elt F)) : (⟨S650000x1, .f32⟩ : BufTy).Contents (Elt F) :=
  broadcastInDim S650000x1 ![0] bcast_S650000_S650000x1_0 (mulf (Host.gather gather_S50000_S650000x1_S650000_n_0_n_n_0_1_1 (invSqrtDegree d) (wrapCol s)) (Host.gather gather_S50000_S650000x1_S650000_n_0_n_n_0_1_1 (invSqrtDegree d) (wrapCol d)))

/-- Aggregate a node matrix over the edges: row d receives the sum of norm(e) · hw[s(e)] over the edges e into d. -/
def aggregate (s d : (⟨S650000, .i32⟩ : BufTy).Contents (Elt F)) (hw : (⟨S50000x128, .f32⟩ : BufTy).Contents (Elt F)) :
    (⟨S50000x128, .f32⟩ : BufTy).Contents (Elt F) :=
  Host.scatterAdd scatter_S50000x128_S650000x1_S650000x128_1_0_0_1 (broadcastInDim S50000x128 ![] bcast_S_S50000x128 (constant S_ .f32 0x00000000#32)) (asCol d) (mulf (Host.gather gather_S50000x128_S650000x1_S650000x128_1_0_n_n_0_1_1128 hw (wrapCol s)) (broadcastInDim S650000x128 ![0, 1] bcast_S650000x1_S650000x128_0_1 (normCol s d)))

/-- A vector of 128 entries as a row, repeated down the 50000 rows. -/
def rowsOf (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- The batch-norm scale g · rsqrt(1 + eps), eps the literal the programs carry. -/
def scaleOf (g : (⟨S128, .f32⟩ : BufTy).Contents (Elt F)) : (⟨S128, .f32⟩ : BufTy).Contents (Elt F) :=
  mulf g (broadcastInDim S128 ![] bcast_S_S128 (Host.rsqrt (constant S_ .f32 0x3F800054#32)))

/-- One layer as the reference spells it: max (((a + b) · scale) + be, 0). -/
def refLayer (a : (⟨S50000x128, .f32⟩ : BufTy).Contents (Elt F)) (b g be : (⟨S128, .f32⟩ : BufTy).Contents (Elt F)) :
    (⟨S50000x128, .f32⟩ : BufTy).Contents (Elt F) :=
  maximumf (addf (mulf (addf a (rowsOf b)) (rowsOf (scaleOf g))) (rowsOf be)) (broadcastInDim S50000x128 ![] bcast_S_S50000x128 (constant S_ .f32 0x00000000#32))

/-- The mean of the node rows of every graph (the count at least one). -/
def meanPool (batch : (⟨S50000, .i32⟩ : BufTy).Contents (Elt F)) (h : (⟨S50000x128, .f32⟩ : BufTy).Contents (Elt F)) :
    (⟨S64x128, .f32⟩ : BufTy).Contents (Elt F) :=
  Host.divf (Host.scatterAdd scatter_S64x128_S50000x1_S50000x128_1_0_0_1 (broadcastInDim S64x128 ![] bcast_S_S64x128 (constant S_ .f32 0x00000000#32)) (broadcastInDim S50000x1 ![0] bcast_S50000_S50000x1_0 batch) h) (broadcastInDim S64x128 ![0, 1] bcast_S64x1_S64x128_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 batch) (broadcastInDim S50000 ![] bcast_S_S50000 (constant S_ .f32 0x3F800000#32))) (broadcastInDim S64 ![] bcast_S_S64 (constant S_ .f32 0x3F800000#32)))))

/-- Add the output bias to every row. -/
def addRow (y : (⟨S64x64, .f32⟩ : BufTy).Contents (Elt F)) (bp : (⟨S64, .f32⟩ : BufTy).Contents (Elt F)) :
    (⟨S64x64, .f32⟩ : BufTy).Contents (Elt F) :=
  addf y (broadcastInDim S64x64 ![0, 1] bcast_S1x64_S64x64_0_1 (broadcastInDim S1x64 ![1] bcast_S64_S1x64_1 bp))

end Cert.Bridge

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«124550_j48266842472715_1_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«124550_j48266842472715_1_alg».proof.Proof.LibMatmulPlain
import proofs.«124550_j48266842472715_1_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.Net.lean ====
/-
  The network both programs compute, as one function of the eighteen argument arrays: three times
  (multiply the node features by the layer's weight, aggregate over the edges with the self-loops and
  the symmetric normalisation, add the bias, scale by g · rsqrt(1 + eps), shift, rectify), then the
  mean of the node rows of every graph, the output weight and the output bias. The products are the
  plain index formula `Cert.Layers.mm`; everything else is spelt with the shared host pieces.
-/
import proofs.«124550_j48266842472715_1_alg».proof.Proof.Shared
import proofs.«124550_j48266842472715_1_alg».proof.Proof.LibDenseLayers

noncomputable section

namespace Cert.Bridge

open Idealize.ShloMosaic Cert.ReferenceIdeal Cert.Layers

variable [Cert.ReferenceIdeal.Facts₀]

/-- One layer: rectify (((aggregate (h · W)) + b) · scale(g) + be). -/
def layerOf {k : Nat} (s d : (⟨S650000, .i32⟩ : BufTy).Contents (Elt Ideal)) (h : Mat 50000 k) (w : Mat k 128)
    (b g be : (⟨S128, .f32⟩ : BufTy).Contents (Elt Ideal)) : (⟨S50000x128, .f32⟩ : BufTy).Contents (Elt Ideal) :=
  refLayer (F := Ideal) (aggregate (F := Ideal) s d (mm (m := 50000) (k := k) (n := 128) h w)) b g be

/-- The whole network. -/
def net (x : (⟨S50000x5, .f32⟩ : BufTy).Contents (Elt Ideal)) (src dst : (⟨S600000, .i32⟩ : BufTy).Contents (Elt Ideal))
    (batch : (⟨S50000, .i32⟩ : BufTy).Contents (Elt Ideal))
    (w1 : (⟨S5x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (w3 : (⟨S128x128, .f32⟩ : BufTy).Contents (Elt Ideal)) (b3 : (⟨S128, .f32⟩ : BufTy).Contents (Elt Ideal))
    (g1 be1 g2 be2 g3 be3 : (⟨S128, .f32⟩ : BufTy).Contents (Elt Ideal))
    (wp : (⟨S128x64, .f32⟩ : BufTy).Contents (Elt Ideal)) (bp : (⟨S64, .f32⟩ : BufTy).Contents (Elt Ideal)) :
    (⟨S64x64, .f32⟩ : BufTy).Contents (Elt Ideal) :=
  addRow (F := Ideal)
    (mm (m := 64) (k := 128) (n := 64)
      (meanPool (F := Ideal) batch
        (layerOf (k := 128) (withLoops src) (withLoops dst)
          (layerOf (k := 128) (withLoops src) (withLoops dst)
            (layerOf (k := 5) (withLoops src) (withLoops dst) x w1 b1 g1 be1) w2 b2 g2 be2) w3 b3 g3 be3)) wp) bp

end Cert.Bridge

end
-- ==== Proof.Spec.lean ====
/-
  The one elementwise formula the kernel's scale-shift-rectify regions compute, beside the matrix
  product `Cert.Layers.mm`: entry (p, q) of `affRect a sc cb` is max (a(p,q) · sc(0,q) + cb(0,q), 0),
  the scale and the shift each one row, repeated down the rows.
-/
import proofs.«124550_j48266842472715_1_alg».proof.Proof.LibDenseLayers

noncomputable section

namespace Cert.Bridge

open Idealize.ShloMosaic Idealize.ShloMosaic.ValueIdx Cert.Layers

/-- Scale every column q of `a` by `sc (0, q)`, shift it by `cb (0, q)`, and take the maximum with zero. -/
def affRect {m n : Nat} (a : Mat m n) (sc cb : Mat 1 n) : Mat m n :=
  fun i => max (a i * sc (ix2 0 (i 1)) + cb (ix2 0 (i 1))) (Ideal.ofBits .f32 0x00000000#32)

theorem affRect_apply {m n : Nat} (a : Mat m n) (sc cb : Mat 1 n) (p : Fin m) (q : Fin n) :
    affRect a sc cb (ix2 p q) = max (a (ix2 p q) * sc (ix2 0 q) + cb (ix2 0 q)) (Ideal.ofBits .f32 0x00000000#32) := rfl

end Cert.Bridge

end
-- ==== Proof.LayerLaw.lean ====
/-
  The one algebraic law that joins the two spellings of a layer. Per layer the reference computes
  max (((a + b) · s) + be, 0) and the kernel max (a · s + (b · s + be), 0), with s = g · rsqrt (1 + eps).
  On the extended reals (a + b) · s = a · s + b · s holds for every a once b and s are real numbers
  (for a = ⊤ or ⊥ both sides are the infinity of the sign of a · s, or 0 when s = 0), and addition is
  associative outright. The scale s is real whenever g is: the literal 1 + eps is a positive real, so its
  inverse square root is a real.
-/
import Idealize.ShloMosaic.Lib.KernelVsHost
import Idealize.ShloMosaic.Lib.IdealHost
import proofs.«124550_j48266842472715_1_alg».proof.Proof.Shared
import proofs.«124550_j48266842472715_1_alg».proof.Proof.Spec

noncomputable section

namespace Cert.Bridge

open Idealize.ShloMosaic Idealize.ShloMosaic.ValueIdx Cert.ReferenceIdeal Cert.Layers

variable [Cert.ReferenceIdeal.Facts₀]
open Cert.ReferenceIdeal.Facts₀

/-- every entry is a real number -/
def IsRealVec {s : Shape} (v : s.Idx → EReal) : Prop := ∀ i, ∃ r : ℝ, v i = (r : EReal)

/-- Multiplication by a real distributes over the sum of any extended real and a real. -/
theorem distrib_real (a : EReal) (b s : ℝ) :
    (a + (b : EReal)) * (s : EReal) = a * (s : EReal) + (b : EReal) * (s : EReal) := by
  induction a using EReal.rec with
  | bot =>
    rw [EReal.bot_add, ← EReal.coe_mul]
    rcases lt_trichotomy s 0 with hs | rfl | hs
    · rw [EReal.bot_mul_coe_of_neg hs, EReal.top_add_coe]
    · simp
    · rw [EReal.bot_mul_coe_of_pos hs, EReal.bot_add]
  | coe a =>
    rw [← EReal.coe_add, ← EReal.coe_mul, ← EReal.coe_mul, ← EReal.coe_mul, ← EReal.coe_add, add_mul]
  | top =>
    rw [EReal.top_add_coe, ← EReal.coe_mul]
    rcases lt_trichotomy s 0 with hs | rfl | hs
    · rw [EReal.top_mul_coe_of_neg hs, EReal.bot_add]
    · simp
    · rw [EReal.top_mul_coe_of_pos hs, EReal.top_add_coe]

/-- The f32 word 0x3F800054 (the float nearest 1.00001) denotes a positive real: 8388692 · 2⁻²³. -/
theorem epsWord_pos : ∃ x : ℝ, 0 < x ∧ Ideal.ofBits .f32 0x3F800054#32 = (x : EReal) := by
  refine ⟨8388692 * ((2 : ℝ) ^ 23)⁻¹, by positivity, ?_⟩
  simp [Ideal.ofBits, Ideal.ieee]

/-- The inverse square root of that word is a real. -/
theorem rsqrt_epsWord_real : ∃ t : ℝ, Ideal.rsqrt (Ideal.ofBits .f32 0x3F800054#32) = (t : EReal) := by
  obtain ⟨x, hx, hx'⟩ := epsWord_pos
  refine ⟨(Real.sqrt x)⁻¹, ?_⟩
  rw [hx', Ideal.rsqrt_coe, if_neg (not_lt.mpr hx.le), if_neg hx.ne']

/-- The scale g · rsqrt (1 + eps) at an entry. -/
theorem scaleOf_apply (g : FVec Ideal S128 .f32) (i : S128.Idx) :
    scaleOf (F := Ideal) g i = g i * Ideal.rsqrt (Ideal.ofBits .f32 0x3F800054#32) := by
  show g i * broadcastInDim S128 ![] bcast_S_S128 (Host.rsqrt (constant (F := Ideal) S_ .f32 0x3F800054#32)) i = _
  rw [broadcastInDim_scalar_apply]
  rfl

theorem scaleOf_real (g : FVec Ideal S128 .f32) (hg : IsRealVec g) : IsRealVec (scaleOf (F := Ideal) g) := by
  intro i
  obtain ⟨r, hr⟩ := hg i
  obtain ⟨t, ht⟩ := rsqrt_epsWord_real
  refine ⟨r * t, ?_⟩
  rw [scaleOf_apply, hr, ht, EReal.coe_mul]

/-- A vector of 128 entries laid along each of the 50000 rows reads, at (p, q), its entry q. -/
theorem rowsOf_apply (v : FVec Ideal S128 .f32) (p : Fin 50000) (q : Fin 128) :
    rowsOf (F := Ideal) v (ix2 p q) = v (ix1 q) := by
  refine (broadcastInDim_oneRow_apply bcast_S1x128_S50000x128_0_1 _ p q).trans ?_
  refine broadcastInDim_apply ![1] bcast_S128_S1x128_1 v (ix2 (0 : Fin 1) q) (ix1 q) ?_
  intro a
  fin_cases a
  show q.val = if (128 : ℕ) = 1 then 0 else q.val
  simp

/-- One layer as the reference spells it is the scale-shift-rectify formula with the bias folded into the shift. -/
theorem layer_eq (hc : S128.ShapeCasts S1x128) (a : FVec Ideal S50000x128 .f32) (b g be : FVec Ideal S128 .f32)
    (hb : IsRealVec b) (hg : IsRealVec g) :
    refLayer (F := Ideal) a b g be
      = affRect (m := 50000) (n := 128) a (shapeCast S1x128 (scaleOf (F := Ideal) g) hc)
          (shapeCast S1x128 (addf (mulf b (scaleOf (F := Ideal) g)) be) hc) := by
  funext i
  obtain ⟨p, q, rfl⟩ : ∃ (p : Fin 50000) (q : Fin 128), i = ix2 p q := ⟨i 0, i 1, eq_ix2 i⟩
  rw [affRect_apply]
  show max ((a (ix2 p q) + rowsOf (F := Ideal) b (ix2 p q)) * rowsOf (F := Ideal) (scaleOf (F := Ideal) g) (ix2 p q)
        + rowsOf (F := Ideal) be (ix2 p q))
      (broadcastInDim S50000x128 ![] bcast_S_S50000x128 (constant (F := Ideal) S_ .f32 0x00000000#32) (ix2 p q)) = _
  rw [rowsOf_apply, rowsOf_apply, rowsOf_apply, broadcastInDim_scalar_apply, shapeCast_a_1a_apply, shapeCast_a_1a_apply]
  show max ((a (ix2 p q) + b (ix1 q)) * scaleOf (F := Ideal) g (ix1 q) + be (ix1 q)) (Ideal.ofBits .f32 0x00000000#32)
      = max (a (ix2 p q) * scaleOf (F := Ideal) g (ix1 q) + (b (ix1 q) * scaleOf (F := Ideal) g (ix1 q) + be (ix1 q)))
          (Ideal.ofBits .f32 0x00000000#32)
  obtain ⟨rb, hrb⟩ := hb (ix1 q)
  obtain ⟨rs, hrs⟩ := scaleOf_real g hg (ix1 q)
  rw [hrb, hrs, distrib_real, add_assoc]

end Cert.Bridge

end
-- ==== Proof.Finite.lean ====
/-
  Finiteness of six inputs from the precondition. The precondition says that the conjunction, over the
  fifteen float inputs, of "every entry x has |x| < +∞" is 1. A conjunction that is 1 has every conjunct 1;
  a reduction by "and" over all axes that is 1 has a 1 at every entry; and an extended real whose absolute
  value max x (-x) lies strictly below +∞ is neither ⊤ nor ⊥, hence a real. Read off for the three biases
  (arguments 5, 7, 9) and the three scales (arguments 10, 12, 14), all [128] vectors.
-/
import Idealize.ShloMosaic.Lib.ReduceAll
import Idealize.ShloMosaic.Lib.ValueIdx
import proofs.«124550_j48266842472715_1_alg».proof.Defs
import proofs.«124550_j48266842472715_1_alg».proof.Proof.Gen.Pre_finite_inputs

noncomputable section

namespace Cert.Bridge.Finite

open Idealize.ShloMosaic Idealize.SL.Sem Idealize.ShloMosaic.ValueIdx

/-- The rank-0 shape has one index. -/
instance : Subsingleton Cert.Pre_finite_inputs.S_.Idx := ⟨fun a b => funext fun d => d.elim0⟩

/-- The f32 word 0x7F800000 denotes +∞. -/
theorem infWord : Ideal.ofBits .f32 0x7F800000#32 = ⊤ := by simp [Ideal.ofBits, Ideal.ieee]

/-- An extended real whose absolute value is strictly below +∞ is a real. -/
theorem real_of_abs_lt_inf (x : EReal)
    (h : Ideal.cmp .olt (max x (-x)) (Ideal.ofBits .f32 0x7F800000#32) = 1#1) : ∃ r : ℝ, x = (r : EReal) := by
  rw [infWord] at h
  induction x using EReal.rec with
  | bot => simp [Ideal.cmp] at h
  | coe r => exact ⟨r, rfl⟩
  | top => simp [Ideal.cmp] at h

section
variable [Cert.Pre_finite_inputs.Facts]
open Cert.Pre_finite_inputs Cert.Pre_finite_inputs.Facts

/-- A [128] vector whose "all (|x| < +∞)" is 1 has every entry real. -/
theorem real_of_all (x : FVec Ideal S128 .f32)
    (h : Host.reduce IntOp.andi (cmpf (F := Ideal) .olt (Host.absf x) (broadcastInDim S128 ![] bcast_S_S128 (constant S_ .f32 0x7F800000#32)))
          (constantI S_ 1 1#1) reducesTo_S128_S_d0 h_S_ ix0 = 1#1) :
    ∀ i, ∃ r : ℝ, x i = (r : EReal) := by
  intro i
  exact real_of_abs_lt_inf (x i) (Host.reduce_andi_all _ _ _ _ _ h i)

/-- The precondition read back: if the conjunction is 1 then the six [128] inputs named are real. -/
theorem fn_one (a0 : FVec Ideal S50000x5 .f32) (a1 : IVec S600000 32) (a2 : IVec S600000 32) (a3 : IVec S50000 32)
    (a4 : FVec Ideal S5x128 .f32) (a5 : FVec Ideal S128 .f32) (a6 : FVec Ideal S128x128 .f32) (a7 : FVec Ideal S128 .f32)
    (a8 : FVec Ideal S128x128 .f32) (a9 a10 a11 a12 a13 a14 a15 : FVec Ideal S128 .f32) (a16 : FVec Ideal S128x64 .f32)
    (a17 : FVec Ideal S64 .f32)
    (h : fn (F := Ideal) a0 a1 a2 a3 a4 a5 a6 a7 a8 a9 a10 a11 a12 a13 a14 a15 a16 a17 ix0 = 1#1) :
    (∀ i, ∃ r : ℝ, a5 i = (r : EReal)) ∧ (∀ i, ∃ r : ℝ, a7 i = (r : EReal)) ∧ (∀ i, ∃ r : ℝ, a9 i = (r : EReal))
      ∧ (∀ i, ∃ r : ℝ, a10 i = (r : EReal)) ∧ (∀ i, ∃ r : ℝ, a12 i = (r : EReal)) ∧ (∀ i, ∃ r : ℝ, a14 i = (r : EReal)) := by
  dsimp only [fn, fn_part1, fn_part2, fn_part3, fn_part4] at h
  simp only [andi, IntOp.andi_eq_one] at h
  obtain ⟨⟨⟨⟨⟨⟨⟨⟨⟨⟨⟨⟨⟨⟨-, -⟩, h5⟩, -⟩, h7⟩, -⟩, h9⟩, h10⟩, -⟩, h12⟩, -⟩, h14⟩, -⟩, -⟩, -⟩ := h
  exact ⟨real_of_all a5 h5, real_of_all a7 h7, real_of_all a9 h9, real_of_all a10 h10, real_of_all a12 h12,
    real_of_all a14 h14⟩

/-- Under the precondition the three biases (arguments 5, 7, 9) and the three scales (arguments 10, 12, 14) hold
    real numbers only, on every device. -/
theorem real_inputs (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg12) i = (r : EReal))
      ∧ (∀ i, ∃ r : ℝ, m ((c.tc : Thread Cert.KernelIdeal.nD Cert.KernelIdeal.τ).loc Cert.KernelIdeal.main_arg14) i = (r : EReal)) :=
  fn_one _ _ _ _ _ _ _ _ _ _ _ _ _ _ _ _ _ _ (congrFun (h c) ix0)

end

end Cert.Bridge.Finite

end
-- ==== Proof.Keep.lean ====
/-
  The buffers that the later segments of the kernel program read and none of them writes — the two
  extended edge lists, the normalisation column and the argument arrays — hold, at every later
  boundary of the run, what they held when the first region was entered: a host stretch leaves a
  buffer it does not write as it was, and a region leaves every buffer other than its output arrays
  as entered (an input array is read through its window and written back unchanged).
-/
import proofs.«124550_j48266842472715_1_alg».proof.Proof.Gen.KernelIdeal.Frame

set_option maxRecDepth 16384

noncomputable section

namespace Cert.Bridge.Keep

open Idealize.ShloMosaic Idealize.ShloMosaic.TcCoe Idealize.SL.Sem Idealize.ShloMosaic.StableHlo
open Cert.KernelIdeal Cert.KernelIdeal.Gen Cert.Bridge

variable {F : FTy → Type} [FloatOps F]
variable (m : (ℓ : Loc nD τ sig) → Buf (Elt F) ℓ) (ρ : Dev nD → PrngReg) (c : Dev nD)

/-- The kept buffers. -/
def keepList : List (Ref sig .tc) := [main_v1, main_v2, main_v26, main_arg3, main_arg5, main_arg6, main_arg7, main_arg8, main_arg9, main_arg10, main_arg11, main_arg12, main_arg13, main_arg14, main_arg15, main_arg16, main_arg17]

/-- A host stretch does not write the buffer: every operation's written set misses it. -/
local macro "host_keeps" : tactic => `(tactic| (
  exact StableHlo.after_of_forall_not_mem _ _ (List.forall_iff_forall_mem.mp (by
    simp only [hostOps1, hostOps3, hostOps5, hostOps6, hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))))

/-- Region 0: boundary 3 to boundary 4. -/
theorem keep4 : ∀ b ∈ keepList, W4 m ρ c (Proc.devRef .tc b) = W3 m ρ c (Proc.devRef .tc b) := by
  intro b hb
  simp only [keepList, List.mem_cons, List.not_mem_nil, or_false] at hb
  rcases hb with rfl | rfl | rfl | rfl | rfl | rfl | rfl | rfl | rfl | rfl | rfl | rfl | rfl | rfl | rfl | rfl | rfl
  all_goals first
    | exact W4_of_ne m ρ c _ (by decide)

/-- Host stretch: boundary 4 to boundary 5. -/
theorem keep5 : ∀ b ∈ keepList, W5 m ρ c (Proc.devRef .tc b) = W4 m ρ c (Proc.devRef .tc b) := by
  intro b hb
  simp only [keepList, List.mem_cons, List.not_mem_nil, or_false] at hb
  rcases hb with rfl | rfl | rfl | rfl | rfl | rfl | rfl | rfl | rfl | rfl | rfl | rfl | rfl | rfl | rfl | rfl | rfl
  all_goals host_keeps

/-- Region 1: boundary 5 to boundary 6. -/
theorem keep6 : ∀ b ∈ keepList, W6 m ρ c (Proc.devRef .tc b) = W5 m ρ c (Proc.devRef .tc b) := by
  intro b hb
  simp only [keepList, List.mem_cons, List.not_mem_nil, or_false] at hb
  rcases hb with rfl | rfl | rfl | rfl | rfl | rfl | rfl | rfl | rfl | rfl | rfl | rfl | rfl | rfl | rfl | rfl | rfl
  all_goals first
    | exact W6_of_ne m ρ c _ (by decide)

/-- Region 2: boundary 6 to boundary 7 (the weight it reads through an input window is among the kept buffers). -/
theorem keep7 : ∀ b ∈ keepList, W7 m ρ c (Proc.devRef .tc b) = W6 m ρ c (Proc.devRef .tc b) := by
  intro b hb
  simp only [keepList, List.mem_cons, List.not_mem_nil, or_false] at hb
  rcases hb with rfl | rfl | rfl | rfl | rfl | rfl | rfl | rfl | rfl | rfl | rfl | rfl | rfl | rfl | rfl | rfl | rfl
  all_goals first
    | exact W7_of_ne m ρ c _ (by decide)
    | exact (W7_arr m ρ c 1).trans (((dat2 (V6 m ρ) c).arrAt_in 1 rfl _).trans (A_eq2 (V6 m ρ) c 1))

/-- Host stretch: boundary 7 to boundary 8. -/
theorem keep8 : ∀ b ∈ keepList, W8 m ρ c (Proc.devRef .tc b) = W7 m ρ c (Proc.devRef .tc b) := by
  intro b hb
  simp only [keepList, List.mem_cons, List.not_mem_nil, or_false] at hb
  rcases hb with rfl | rfl | rfl | rfl | rfl | rfl | rfl | rfl | rfl | rfl | rfl | rfl | rfl | rfl | rfl | rfl | rfl
  all_goals host_keeps

/-- Region 3: boundary 8 to boundary 9. -/
theorem keep9 : ∀ b ∈ keepList, W9 m ρ c (Proc.devRef .tc b) = W8 m ρ c (Proc.devRef .tc b) := by
  intro b hb
  simp only [keepList, List.mem_cons, List.not_mem_nil, or_false] at hb
  rcases hb with rfl | rfl | rfl | rfl | rfl | rfl | rfl | rfl | rfl | rfl | rfl | rfl | rfl | rfl | rfl | rfl | rfl
  all_goals first
    | exact W9_of_ne m ρ c _ (by decide)

/-- Region 4: boundary 9 to boundary 10 (the weight it reads through an input window is among the kept buffers). -/
theorem keep10 : ∀ b ∈ keepList, W10 m ρ c (Proc.devRef .tc b) = W9 m ρ c (Proc.devRef .tc b) := by
  intro b hb
  simp only [keepList, List.mem_cons, List.not_mem_nil, or_false] at hb
  rcases hb with rfl | rfl | rfl | rfl | rfl | rfl | rfl | rfl | rfl | rfl | rfl | rfl | rfl | rfl | rfl | rfl | rfl
  all_goals first
    | exact W10_of_ne m ρ c _ (by decide)
    | exact (W10_arr m ρ c 1).trans (((dat4 (V9 m ρ) c).arrAt_in 1 rfl _).trans (A_eq4 (V9 m ρ) c 1))

/-- Host stretch: boundary 10 to boundary 11. -/
theorem keep11 : ∀ b ∈ keepList, W11 m ρ c (Proc.devRef .tc b) = W10 m ρ c (Proc.devRef .tc b) := by
  intro b hb
  simp only [keepList, List.mem_cons, List.not_mem_nil, or_false] at hb
  rcases hb with rfl | rfl | rfl | rfl | rfl | rfl | rfl | rfl | rfl | rfl | rfl | rfl | rfl | rfl | rfl | rfl | rfl
  all_goals host_keeps

/-- Region 5: boundary 11 to boundary 12. -/
theorem keep12 : ∀ b ∈ keepList, W12 m ρ c (Proc.devRef .tc b) = W11 m ρ c (Proc.devRef .tc b) := by
  intro b hb
  simp only [keepList, List.mem_cons, List.not_mem_nil, or_false] at hb
  rcases hb with rfl | rfl | rfl | rfl | rfl | rfl | rfl | rfl | rfl | rfl | rfl | rfl | rfl | rfl | rfl | rfl | rfl
  all_goals first
    | exact W12_of_ne m ρ c _ (by decide)

/-- Host stretch: boundary 12 to boundary 13. -/
theorem keep13 : ∀ b ∈ keepList, W13 m ρ c (Proc.devRef .tc b) = W12 m ρ c (Proc.devRef .tc b) := by
  intro b hb
  simp only [keepList, List.mem_cons, List.not_mem_nil, or_false] at hb
  rcases hb with rfl | rfl | rfl | rfl | rfl | rfl | rfl | rfl | rfl | rfl | rfl | rfl | rfl | rfl | rfl | rfl | rfl
  all_goals host_keeps

/-- Region 6: boundary 13 to boundary 14 (the weight it reads through an input window is among the kept buffers). -/
theorem keep14 : ∀ b ∈ keepList, W14 m ρ c (Proc.devRef .tc b) = W13 m ρ c (Proc.devRef .tc b) := by
  intro b hb
  simp only [keepList, List.mem_cons, List.not_mem_nil, or_false] at hb
  rcases hb with rfl | rfl | rfl | rfl | rfl | rfl | rfl | rfl | rfl | rfl | rfl | rfl | rfl | rfl | rfl | rfl | rfl
  all_goals first
    | exact W14_of_ne m ρ c _ (by decide)
    | exact (W14_arr m ρ c 1).trans (((dat6 (V13 m ρ) c).arrAt_in 1 rfl _).trans (A_eq6 (V13 m ρ) c 1))

theorem kept4 (b : Ref sig .tc) (hb : b ∈ keepList) : W4 m ρ c (Proc.devRef .tc b) = W3 m ρ c (Proc.devRef .tc b) :=
  (keep4 m ρ c b hb)
theorem kept6 (b : Ref sig .tc) (hb : b ∈ keepList) : W6 m ρ c (Proc.devRef .tc b) = W3 m ρ c (Proc.devRef .tc b) :=
  (keep6 m ρ c b hb).trans <| (keep5 m ρ c b hb).trans <| (keep4 m ρ c b hb)
theorem kept7 (b : Ref sig .tc) (hb : b ∈ keepList) : W7 m ρ c (Proc.devRef .tc b) = W3 m ρ c (Proc.devRef .tc b) :=
  (keep7 m ρ c b hb).trans <| (keep6 m ρ c b hb).trans <| (keep5 m ρ c b hb).trans <| (keep4 m ρ c b hb)
theorem kept9 (b : Ref sig .tc) (hb : b ∈ keepList) : W9 m ρ c (Proc.devRef .tc b) = W3 m ρ c (Proc.devRef .tc b) :=
  (keep9 m ρ c b hb).trans <| (keep8 m ρ c b hb).trans <| (keep7 m ρ c b hb).trans <| (keep6 m ρ c b hb).trans <| (keep5 m ρ c b hb).trans <| (keep4 m ρ c b hb)
theorem kept10 (b : Ref sig .tc) (hb : b ∈ keepList) : W10 m ρ c (Proc.devRef .tc b) = W3 m ρ c (Proc.devRef .tc b) :=
  (keep10 m ρ c b hb).trans <| (keep9 m ρ c b hb).trans <| (keep8 m ρ c b hb).trans <| (keep7 m ρ c b hb).trans <| (keep6 m ρ c b hb).trans <| (keep5 m ρ c b hb).trans <| (keep4 m ρ c b hb)
theorem kept12 (b : Ref sig .tc) (hb : b ∈ keepList) : W12 m ρ c (Proc.devRef .tc b) = W3 m ρ c (Proc.devRef .tc b) :=
  (keep12 m ρ c b hb).trans <| (keep11 m ρ c b hb).trans <| (keep10 m ρ c b hb).trans <| (keep9 m ρ c b hb).trans <| (keep8 m ρ c b hb).trans <| (keep7 m ρ c b hb).trans <| (keep6 m ρ c b hb).trans <| (keep5 m ρ c b hb).trans <| (keep4 m ρ c b hb)
theorem kept13 (b : Ref sig .tc) (hb : b ∈ keepList) : W13 m ρ c (Proc.devRef .tc b) = W3 m ρ c (Proc.devRef .tc b) :=
  (keep13 m ρ c b hb).trans <| (keep12 m ρ c b hb).trans <| (keep11 m ρ c b hb).trans <| (keep10 m ρ c b hb).trans <| (keep9 m ρ c b hb).trans <| (keep8 m ρ c b hb).trans <| (keep7 m ρ c b hb).trans <| (keep6 m ρ c b hb).trans <| (keep5 m ρ c b hb).trans <| (keep4 m ρ c b hb)
theorem kept14 (b : Ref sig .tc) (hb : b ∈ keepList) : W14 m ρ c (Proc.devRef .tc b) = W3 m ρ c (Proc.devRef .tc b) :=
  (keep14 m ρ c b hb).trans <| (keep13 m ρ c b hb).trans <| (keep12 m ρ c b hb).trans <| (keep11 m ρ c b hb).trans <| (keep10 m ρ c b hb).trans <| (keep9 m ρ c b hb).trans <| (keep8 m ρ c b hb).trans <| (keep7 m ρ c b hb).trans <| (keep6 m ρ c b hb).trans <| (keep5 m ρ c b hb).trans <| (keep4 m ρ c b hb)

end Cert.Bridge.Keep

end
-- ==== Proof.LibHostStages.lean ====
/-
  Two facts about a straight line of host operations, for any topology, buffer signature and element values.

  Running two lists of operations one after the other is running their concatenation (`after_append`): a long program can
  be read back stage by stage, each stage from ANY contents before it.

  An outlined function's intermediate values live in buffers typed through the call's record; a value is stored into
  such a buffer and read back through a change of type along the buffer's type equation, there and back. The round trip
  is the identity (`ofBuf_toBuf`): rewriting with it removes those changes of type in pairs, however deeply the function's
  operations nest them, before two spellings of the function's result are compared.
-/
import Idealize.ShloMosaic.Lib.StableHlo.Run

noncomputable section

namespace Cert.Lib.HostStages

open Idealize.ShloMosaic Idealize.ShloMosaic.StableHlo

variable {τ : Topo} {sig : RefSig} {Val : EltTy → Type}

/-- Running two lists of operations one after the other is running their concatenation. -/
theorem after_append (l₁ l₂ : List (HloOp τ sig Val)) :
    ∀ V : Valuation τ sig Val, after (l₁ ++ l₂) V = after l₂ (after l₁ V) := by
  induction l₁ with
  | nil => intro V; rfl
  | cons op l ih => intro V; exact ih (op.result V)

/-- A value stored in a typed buffer and read back is the value. -/
theorem ofBuf_toBuf {T : BufTy} (x : TRef sig T) (v : T.Contents Val) : x.ofBuf (x.toBuf v) = v := by
  obtain ⟨r, h, _, _⟩ := x
  subst h
  rfl

end Cert.Lib.HostStages

end
-- ==== Proof.KernelHost0.lean ====
/-
  What the kernel program's opening host stretches leave when its first region is entered: the two
  edge endpoint lists each followed by one self-loop per node, and every argument array as launched (no host operation writes an argument).
-/
import proofs.«124550_j48266842472715_1_alg».proof.Proof.Gen.KernelIdeal.Frame
import proofs.«124550_j48266842472715_1_alg».proof.Proof.Gen.ReferenceIdeal
import proofs.«124550_j48266842472715_1_alg».proof.Proof.Shared
import proofs.«124550_j48266842472715_1_alg».proof.Proof.LibHostStages

set_option maxRecDepth 16384

noncomputable section

namespace Cert.Bridge.KernelHost0

open Idealize.ShloMosaic Idealize.ShloMosaic.TcCoe Idealize.SL.Sem Idealize.ShloMosaic.StableHlo
open Cert.KernelIdeal Cert.KernelIdeal.Gen Cert.Bridge

variable (m : (ℓ : Loc nD τ sig) → Buf (Elt Ideal) ℓ) (ρ : Dev nD → PrngReg) (c : Dev nD)

/-- The source list with the self-loops, at region 0's entry. -/
theorem srcLoops : W3 m ρ c (Proc.devRef .tc main_v1) = withLoops (F := Ideal) (m ((c : Thread nD τ).loc main_arg1)) := by
  show StableHlo.after hostOps0_2 (StableHlo.after hostOps0_1 (StableHlo.after hostOps0 (W0 m ρ c))) (Proc.devRef .tc main_v1) = _
  simp only [hostOps0_2, hostOps0_1, hostOps0]
  after_results
  rfl

/-- The destination list with the self-loops, at region 0's entry. -/
theorem dstLoops : W3 m ρ c (Proc.devRef .tc main_v2) = withLoops (F := Ideal) (m ((c : Thread nD τ).loc main_arg2)) := by
  show StableHlo.after hostOps0_2 (StableHlo.after hostOps0_1 (StableHlo.after hostOps0 (W0 m ρ c))) (Proc.devRef .tc main_v2) = _
  simp only [hostOps0_2, hostOps0_1, hostOps0]
  after_results
  rfl

theorem arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results
theorem arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0_2, hostOps0_1, hostOps0]
  after_results
theorem arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0_2, hostOps0_1, hostOps0]
  after_results
theorem arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0_2, hostOps0_1, hostOps0]
  after_results
theorem arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  simp only [hostOps0_2, hostOps0_1, hostOps0]
  after_results
theorem arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  simp only [hostOps0_2, hostOps0_1, hostOps0]
  after_results
theorem arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  simp only [hostOps0_2, hostOps0_1, hostOps0]
  after_results
theorem arg9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  simp only [hostOps0_2, hostOps0_1, hostOps0]
  after_results
theorem arg10 : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  simp only [hostOps0_2, hostOps0_1, hostOps0]
  after_results
theorem arg11 : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  simp only [hostOps0_2, hostOps0_1, hostOps0]
  after_results
theorem arg12 : W3 m ρ c (Proc.devRef .tc main_arg12) = m ((c : Thread nD τ).loc main_arg12) := by
  show StableHlo.after hostOps0_2 (StableHlo.after hostOps0_1 (StableHlo.after hostOps0 (W0 m ρ c))) (Proc.devRef .tc main_arg12) = _
  simp only [hostOps0_2, hostOps0_1, hostOps0]
  after_results
theorem arg13 : W3 m ρ c (Proc.devRef .tc main_arg13) = m ((c : Thread nD τ).loc main_arg13) := by
  show StableHlo.after hostOps0_2 (StableHlo.after hostOps0_1 (StableHlo.after hostOps0 (W0 m ρ c))) (Proc.devRef .tc main_arg13) = _
  simp only [hostOps0_2, hostOps0_1, hostOps0]
  after_results
theorem arg14 : W3 m ρ c (Proc.devRef .tc main_arg14) = m ((c : Thread nD τ).loc main_arg14) := by
  show StableHlo.after hostOps0_2 (StableHlo.after hostOps0_1 (StableHlo.after hostOps0 (W0 m ρ c))) (Proc.devRef .tc main_arg14) = _
  simp only [hostOps0_2, hostOps0_1, hostOps0]
  after_results
theorem arg15 : W3 m ρ c (Proc.devRef .tc main_arg15) = m ((c : Thread nD τ).loc main_arg15) := by
  show StableHlo.after hostOps0_2 (StableHlo.after hostOps0_1 (StableHlo.after hostOps0 (W0 m ρ c))) (Proc.devRef .tc main_arg15) = _
  simp only [hostOps0_2, hostOps0_1, hostOps0]
  after_results
theorem arg16 : W3 m ρ c (Proc.devRef .tc main_arg16) = m ((c : Thread nD τ).loc main_arg16) := by
  show StableHlo.after hostOps0_2 (StableHlo.after hostOps0_1 (StableHlo.after hostOps0 (W0 m ρ c))) (Proc.devRef .tc main_arg16) = _
  simp only [hostOps0_2, hostOps0_1, hostOps0]
  after_results
theorem arg17 : W3 m ρ c (Proc.devRef .tc main_arg17) = m ((c : Thread nD τ).loc main_arg17) := by
  show StableHlo.after hostOps0_2 (StableHlo.after hostOps0_1 (StableHlo.after hostOps0 (W0 m ρ c))) (Proc.devRef .tc main_arg17) = _
  simp only [hostOps0_2, hostOps0_1, hostOps0]
  after_results

end Cert.Bridge.KernelHost0

end
-- ==== Proof.KernelNorm.lean ====
/-
  What the kernel program's opening host operations leave for its first region: the per-edge normalisation column.
  The operations run in three stretches. The first extends each edge endpoint list by one self-loop per node, counts
  the in-degree of every node over the extended destination list, and forms the comparison "degree positive" and the
  inverse square root of the degree. The second selects, node by node, the inverse square root where the degree is
  positive and zero elsewhere. The third wraps negative indices of both extended lists by the node count, gathers the
  selected value at each edge's source and at its destination, multiplies the two and lays the products out as a
  column. Each stretch is read from ARBITRARY contents before it, so each lemma sees only its own operations; the
  three are then composed from the launch contents, where the argument arrays are as launched.
-/
import proofs.«124550_j48266842472715_1_alg».proof.Proof.Gen.KernelIdeal.Frame
import proofs.«124550_j48266842472715_1_alg».proof.Proof.Gen.ReferenceIdeal
import proofs.«124550_j48266842472715_1_alg».proof.Proof.Shared
import proofs.«124550_j48266842472715_1_alg».proof.Proof.LibHostStages

set_option maxRecDepth 16384

noncomputable section

namespace Cert.Bridge.KernelNorm

open Idealize.ShloMosaic Idealize.ShloMosaic.TcCoe Idealize.SL.Sem Idealize.ShloMosaic.StableHlo
open Cert.KernelIdeal Cert.KernelIdeal.Gen Cert.Bridge

/-! ## Each stretch, from arbitrary contents before it -/

section Stretches

variable (V : Valuation τ sig (Elt Ideal))

/-- The first stretch leaves the source list followed by one self-loop per node. -/
theorem loops_src : after hostOps0 V (Proc.devRef .tc main_v1) = withLoops (F := Ideal) (V (Proc.devRef .tc main_arg1)) := by
  simp only [hostOps0]
  after_results
  rfl

/-- The first stretch leaves the destination list followed by one self-loop per node. -/
theorem loops_dst : after hostOps0 V (Proc.devRef .tc main_v2) = withLoops (F := Ideal) (V (Proc.devRef .tc main_arg2)) := by
  simp only [hostOps0]
  after_results
  rfl

/-- The first stretch leaves the comparison "in-degree positive", the degree counted over the extended destination list. -/
theorem degree_pos : after hostOps0 V (Proc.devRef .tc main_v8)
    = cmpf (F := Ideal) .ogt (degree (F := Ideal) (withLoops (F := Ideal) (V (Proc.devRef .tc main_arg2))))
        (broadcastInDim S50000 ![] bcast_S_S50000 (constant (F := Ideal) S_ .f32 0x00000000#32)) := by
  simp only [hostOps0]
  after_results
  rfl

/-- The first stretch leaves the inverse square root of that degree. -/
theorem degree_rsqrt : after hostOps0 V (Proc.devRef .tc main_v9)
    = Host.rsqrt (F := Ideal) (φ := .f32) (degree (F := Ideal) (withLoops (F := Ideal) (V (Proc.devRef .tc main_arg2)))) := by
  simp only [hostOps0]
  after_results
  rfl

/-- The first stretch leaves the zero scalar the selection falls back to. -/
theorem zero_scalar : after hostOps0 V (Proc.devRef .tc main_cst_2) = constant (F := Ideal) S_ .f32 0x00000000#32 := by
  simp only [hostOps0]
  after_results

/-- The second stretch selects, node by node, the second operand where the first holds and the zero scalar repeated
    over the nodes elsewhere. -/
theorem where_select : after hostOps0_1 V (Proc.devRef .tc main_v10)
    = select (V (Proc.devRef .tc main_v8)) (V (Proc.devRef .tc main_v9))
        (broadcastInDim S50000 ![] bcast_S_S50000 (id (V (Proc.devRef .tc main_cst_2)))) := by
  simp only [hostOps0_1]
  after_results
  rfl

/-- The second stretch writes neither extended list. -/
theorem where_keeps_src : after hostOps0_1 V (Proc.devRef .tc main_v1) = V (Proc.devRef .tc main_v1) := by
  simp only [hostOps0_1]
  after_results
theorem where_keeps_dst : after hostOps0_1 V (Proc.devRef .tc main_v2) = V (Proc.devRef .tc main_v2) := by
  simp only [hostOps0_1]
  after_results

/-- The per-edge column from a per-node factor and the two endpoint lists: the factor gathered at each edge's wrapped
    source index times the factor gathered at its wrapped destination index. -/
def normOf (dinv : (⟨Cert.ReferenceIdeal.S50000, .f32⟩ : BufTy).Contents (Elt Ideal))
    (s d : (⟨Cert.ReferenceIdeal.S650000, .i32⟩ : BufTy).Contents (Elt Ideal)) :
    (⟨Cert.ReferenceIdeal.S650000x1, .f32⟩ : BufTy).Contents (Elt Ideal) :=
  broadcastInDim Cert.ReferenceIdeal.S650000x1 ![0] Cert.ReferenceIdeal.Facts₀.bcast_S650000_S650000x1_0
    (mulf (F := Ideal) (φ := .f32) (Host.gather Cert.ReferenceIdeal.gather_S50000_S650000x1_S650000_n_0_n_n_0_1_1 dinv (wrapCol (F := Ideal) s))
      (Host.gather Cert.ReferenceIdeal.gather_S50000_S650000x1_S650000_n_0_n_n_0_1_1 dinv (wrapCol (F := Ideal) d)))

/-- The shared normalisation column is that column at the inverse square root of the degree over the destinations. -/
theorem normCol_eq (s d : (⟨Cert.ReferenceIdeal.S650000, .i32⟩ : BufTy).Contents (Elt Ideal)) :
    normCol (F := Ideal) s d = normOf (invSqrtDegree (F := Ideal) d) s d := rfl

/-- The third stretch leaves that column of the selected factor and the two extended lists it finds. -/
theorem edge_norm : after hostOps0_2 V (Proc.devRef .tc main_v26)
    = normOf (V (Proc.devRef .tc main_v10)) (V (Proc.devRef .tc main_v1)) (V (Proc.devRef .tc main_v2)) := by
  simp only [hostOps0_2]
  after_results_simp
  rfl

/-! ## The stretches with what they find stated as hypotheses -/

/-- If the contents before the second stretch hold the comparison, the inverse square root and the zero scalar of a
    destination list d, the stretch leaves the inverse square root of d's degree where positive, zero elsewhere. -/
theorem where_invSqrt (d : (⟨Cert.ReferenceIdeal.S650000, .i32⟩ : BufTy).Contents (Elt Ideal))
    (h8 : V (Proc.devRef .tc main_v8)
      = cmpf (F := Ideal) .ogt (degree (F := Ideal) d)
          (broadcastInDim S50000 ![] bcast_S_S50000 (constant (F := Ideal) S_ .f32 0x00000000#32)))
    (h9 : V (Proc.devRef .tc main_v9) = Host.rsqrt (F := Ideal) (φ := .f32) (degree (F := Ideal) d))
    (h0 : V (Proc.devRef .tc main_cst_2) = constant (F := Ideal) S_ .f32 0x00000000#32) :
    after hostOps0_1 V (Proc.devRef .tc main_v10) = invSqrtDegree (F := Ideal) d := by
  rw [where_select V, h8, h9, h0]
  rfl

/-- If the contents before the third stretch hold a per-node factor and two endpoint lists s and d, and the factor
    is the inverse square root of d's degree, the stretch leaves the normalisation column of s and d. -/
theorem edge_normCol (s d : (⟨Cert.ReferenceIdeal.S650000, .i32⟩ : BufTy).Contents (Elt Ideal))
    (h10 : V (Proc.devRef .tc main_v10) = invSqrtDegree (F := Ideal) d)
    (h1 : V (Proc.devRef .tc main_v1) = s) (h2 : V (Proc.devRef .tc main_v2) = d) :
    after hostOps0_2 V (Proc.devRef .tc main_v26) = normCol (F := Ideal) s d := by
  rw [edge_norm V, h10, h1, h2]
  exact (normCol_eq s d).symm

end Stretches

/-! ## From the launch contents to the first region's entry -/

variable (m : (ℓ : Loc nD τ sig) → Buf (Elt Ideal) ℓ) (ρ : Dev nD → PrngReg) (c : Dev nD)

/-- When the first region is entered, the column buffer holds the normalisation column of the two launched edge
    endpoint lists, each extended by one self-loop per node. -/
theorem norm : W3 m ρ c (Proc.devRef .tc main_v26)
    = normCol (F := Ideal) (withLoops (m ((c : Thread nD τ).loc main_arg1))) (withLoops (m ((c : Thread nD τ).loc main_arg2))) :=
  edge_normCol (W2 m ρ c) (withLoops (F := Ideal) (m ((c : Thread nD τ).loc main_arg1)))
    (withLoops (F := Ideal) (m ((c : Thread nD τ).loc main_arg2)))
    (where_invSqrt (W1 m ρ c) (withLoops (F := Ideal) (m ((c : Thread nD τ).loc main_arg2)))
      (degree_pos (W0 m ρ c)) (degree_rsqrt (W0 m ρ c)) (zero_scalar (W0 m ρ c)))
    ((where_keeps_src (W1 m ρ c)).trans (loops_src (W0 m ρ c)))
    ((where_keeps_dst (W1 m ρ c)).trans (loops_dst (W0 m ρ c)))

end Cert.Bridge.KernelNorm

end
-- ==== Proof.KernelStretch.lean ====
/-
  The host computations the kernel program runs between its regions, each read at an arbitrary contents of the
  buffers it starts from, as the shared functions of the layer stack.

  Before each of the three elementwise regions: the aggregation of the layer's product over the edges (gather the
  source rows with negative indices wrapped by the node count, scale each row by its edge's normalisation
  dinv[s] · dinv[d], add into the destination rows of a zero matrix); the layer's scale g · rsqrt(1 + eps) as one
  row; and its shift b · scale + be as one row. After the last elementwise region: the mean of the node rows of
  every graph. After the last product: the output bias added to every row.

  Each statement takes the contents of the buffers the stretch reads as hypotheses and gives the contents of one
  buffer it writes; nothing about how the earlier buffers came to hold those contents is used.
-/
import proofs.«124550_j48266842472715_1_alg».proof.Proof.Gen.KernelIdeal.Frame
import proofs.«124550_j48266842472715_1_alg».proof.Proof.Gen.ReferenceIdeal
import proofs.«124550_j48266842472715_1_alg».proof.Proof.Shared

noncomputable section

namespace Cert.Bridge.KernelStretch

open Idealize.ShloMosaic Idealize.ShloMosaic.TcCoe Idealize.SL.Sem Idealize.ShloMosaic.StableHlo
open Cert.KernelIdeal Cert.KernelIdeal.Gen Cert.KernelIdeal.Facts₀ Cert.Bridge

variable (V : Valuation τ sig (Elt Ideal))

/-! ## The host stretch before elementwise region 1 -/

set_option maxHeartbeats 2000000 in
/-- The aggregation of the layer's product over the edges: gather the source rows (negative indices wrapped), scale each
    by its edge's normalisation, add into the destination rows of a zero matrix. -/
theorem agg1 (s d : (⟨S650000, .i32⟩ : BufTy).Contents (Elt Ideal)) (hw : (⟨S50000x128, .f32⟩ : BufTy).Contents (Elt Ideal))
    (hs : V (Proc.devRef .tc main_v1) = s) (hd : V (Proc.devRef .tc main_v2) = d)
    (hn : V (Proc.devRef .tc main_v26) = normCol (F := Ideal) s d) (hh : V (Proc.devRef .tc main_v27) = hw) :
    StableHlo.after hostOps1 V (Proc.devRef .tc main_v39) = aggregate (F := Ideal) s d hw := by
  simp only [hostOps1]
  after_results_simp
  rw [hs, hd, hn, hh]
  rfl

set_option maxHeartbeats 2000000 in
/-- The layer's scale g · rsqrt(1 + eps), laid out as one row. -/
theorem scaleRow1 (g : (⟨S128, .f32⟩ : BufTy).Contents (Elt Ideal)) (hg : V (Proc.devRef .tc main_arg10) = g) :
    StableHlo.after hostOps1 V (Proc.devRef .tc main_v45) = shapeCast S1x128 (scaleOf (F := Ideal) g) Gen.shapeCasts_S128_S1x128 := by
  simp only [hostOps1]
  after_results_simp
  rw [hg]
  rfl

set_option maxHeartbeats 2000000 in
/-- The layer's shift b · scale + be, laid out as one row. -/
theorem shiftRow1 (b g be : (⟨S128, .f32⟩ : BufTy).Contents (Elt Ideal))
    (hb : V (Proc.devRef .tc main_arg5) = b) (hg : V (Proc.devRef .tc main_arg10) = g) (hbe : V (Proc.devRef .tc main_arg11) = be) :
    StableHlo.after hostOps1 V (Proc.devRef .tc main_v46)
      = shapeCast S1x128 (addf (F := Ideal) (s := S128) (φ := .f32) (mulf (F := Ideal) (s := S128) (φ := .f32) b (scaleOf (F := Ideal) g)) be) Gen.shapeCasts_S128_S1x128 := by
  simp only [hostOps1]
  after_results_simp
  rw [hb, hg, hbe]
  rfl

/-! ## The host stretch before elementwise region 3 -/

set_option maxHeartbeats 2000000 in
/-- The aggregation of the layer's product over the edges: gather the source rows (negative indices wrapped), scale each
    by its edge's normalisation, add into the destination rows of a zero matrix. -/
theorem agg3 (s d : (⟨S650000, .i32⟩ : BufTy).Contents (Elt Ideal)) (hw : (⟨S50000x128, .f32⟩ : BufTy).Contents (Elt Ideal))
    (hs : V (Proc.devRef .tc main_v1) = s) (hd : V (Proc.devRef .tc main_v2) = d)
    (hn : V (Proc.devRef .tc main_v26) = normCol (F := Ideal) s d) (hh : V (Proc.devRef .tc main_v48) = hw) :
    StableHlo.after hostOps3 V (Proc.devRef .tc main_v60) = aggregate (F := Ideal) s d hw := by
  simp only [hostOps3]
  after_results_simp
  rw [hs, hd, hn, hh]
  rfl

set_option maxHeartbeats 2000000 in
/-- The layer's scale g · rsqrt(1 + eps), laid out as one row. -/
theorem scaleRow3 (g : (⟨S128, .f32⟩ : BufTy).Contents (Elt Ideal)) (hg : V (Proc.devRef .tc main_arg12) = g) :
    StableHlo.after hostOps3 V (Proc.devRef .tc main_v66) = shapeCast S1x128 (scaleOf (F := Ideal) g) Gen.shapeCasts_S128_S1x128 := by
  simp only [hostOps3]
  after_results_simp
  rw [hg]
  rfl

set_option maxHeartbeats 2000000 in
/-- The layer's shift b · scale + be, laid out as one row. -/
theorem shiftRow3 (b g be : (⟨S128, .f32⟩ : BufTy).Contents (Elt Ideal))
    (hb : V (Proc.devRef .tc main_arg7) = b) (hg : V (Proc.devRef .tc main_arg12) = g) (hbe : V (Proc.devRef .tc main_arg13) = be) :
    StableHlo.after hostOps3 V (Proc.devRef .tc main_v67)
      = shapeCast S1x128 (addf (F := Ideal) (s := S128) (φ := .f32) (mulf (F := Ideal) (s := S128) (φ := .f32) b (scaleOf (F := Ideal) g)) be) Gen.shapeCasts_S128_S1x128 := by
  simp only [hostOps3]
  after_results_simp
  rw [hb, hg, hbe]
  rfl

/-! ## The host stretch before elementwise region 5 -/

set_option maxHeartbeats 2000000 in
/-- The aggregation of the layer's product over the edges: gather the source rows (negative indices wrapped), scale each
    by its edge's normalisation, add into the destination rows of a zero matrix. -/
theorem agg5 (s d : (⟨S650000, .i32⟩ : BufTy).Contents (Elt Ideal)) (hw : (⟨S50000x128, .f32⟩ : BufTy).Contents (Elt Ideal))
    (hs : V (Proc.devRef .tc main_v1) = s) (hd : V (Proc.devRef .tc main_v2) = d)
    (hn : V (Proc.devRef .tc main_v26) = normCol (F := Ideal) s d) (hh : V (Proc.devRef .tc main_v69) = hw) :
    StableHlo.after hostOps5 V (Proc.devRef .tc main_v81) = aggregate (F := Ideal) s d hw := by
  simp only [hostOps5]
  after_results_simp
  rw [hs, hd, hn, hh]
  rfl

set_option maxHeartbeats 2000000 in
/-- The layer's scale g · rsqrt(1 + eps), laid out as one row. -/
theorem scaleRow5 (g : (⟨S128, .f32⟩ : BufTy).Contents (Elt Ideal)) (hg : V (Proc.devRef .tc main_arg14) = g) :
    StableHlo.after hostOps5 V (Proc.devRef .tc main_v87) = shapeCast S1x128 (scaleOf (F := Ideal) g) Gen.shapeCasts_S128_S1x128 := by
  simp only [hostOps5]
  after_results_simp
  rw [hg]
  rfl

set_option maxHeartbeats 2000000 in
/-- The layer's shift b · scale + be, laid out as one row. -/
theorem shiftRow5 (b g be : (⟨S128, .f32⟩ : BufTy).Contents (Elt Ideal))
    (hb : V (Proc.devRef .tc main_arg9) = b) (hg : V (Proc.devRef .tc main_arg14) = g) (hbe : V (Proc.devRef .tc main_arg15) = be) :
    StableHlo.after hostOps5 V (Proc.devRef .tc main_v88)
      = shapeCast S1x128 (addf (F := Ideal) (s := S128) (φ := .f32) (mulf (F := Ideal) (s := S128) (φ := .f32) b (scaleOf (F := Ideal) g)) be) Gen.shapeCasts_S128_S1x128 := by
  simp only [hostOps5]
  after_results_simp
  rw [hb, hg, hbe]
  rfl

/-! ## The two last host stretches -/

set_option maxHeartbeats 2000000 in
/-- The mean of the node rows of every graph: the rows added per graph, divided by the graph's node count (at least one). -/
theorem pooled (batch : (⟨S50000, .i32⟩ : BufTy).Contents (Elt Ideal)) (h : (⟨S50000x128, .f32⟩ : BufTy).Contents (Elt Ideal))
    (hb : V (Proc.devRef .tc main_arg3) = batch) (hh : V (Proc.devRef .tc main_v89) = h) :
    StableHlo.after hostOps6 V (Proc.devRef .tc main_v101) = meanPool (F := Ideal) batch h := by
  simp only [hostOps6]
  after_results_simp
  rw [hb, hh]
  rfl

set_option maxHeartbeats 2000000 in
/-- The output bias added to every row. -/
theorem biased (y : (⟨S64x64, .f32⟩ : BufTy).Contents (Elt Ideal)) (bp : (⟨S64, .f32⟩ : BufTy).Contents (Elt Ideal))
    (hy : V (Proc.devRef .tc main_v102) = y) (hbp : V (Proc.devRef .tc main_arg17) = bp) :
    StableHlo.after hostOps7 V (Proc.devRef .tc main_v105) = addRow (F := Ideal) y bp := by
  simp only [hostOps7]
  after_results_simp
  rw [hy, hbp]
  rfl

end Cert.Bridge.KernelStretch

end
-- ==== Proof.RegMm0.lean ====
/-
  The first matrix-product region: a [50000, 5] array times a [5, 128] weight, taken 5000 rows at a time over ten
  grid points. Each point reads rows t*5000 .. t*5000+4999 of the left array and the whole weight, forms their product
  into a zero accumulator (both operands first cast to a narrower float format, the identity on the extended reals),
  and writes it to the same rows of the output array. The ten row blocks tile the output, so the output array ends
  holding the product of the two arrays as the region found them.
-/
import proofs.«124550_j48266842472715_1_alg».proof.Proof.Gen.KernelIdeal.Frame
import proofs.«124550_j48266842472715_1_alg».proof.Proof.LibDenseLayers
import Idealize.ShloMosaic.Lib.ValueIdx
import Idealize.ShloMosaic.Lib.Pipeline.Value
import Idealize.ShloMosaic.PureOps.Ideal.Laws

noncomputable section

namespace Cert.Bridge.RegMm0

open Idealize.ShloMosaic Idealize.ShloMosaic.ValueIdx Cert.KernelIdeal Cert.KernelIdeal.Gen Cert.Layers
open Cert.LibMatmulPlain Idealize.ShloMosaic.TcCoe
open Idealize.ShloMosaic.Pipeline (Dat)

/-- The offsets of a whole-block access are zero on both axes. -/
theorem zeroOffsets : (![0, 0] : Fin 2 → Nat) = fun _ => 0 := funext fun a => by fin_cases a <;> rfl

/-- The value the body stores is the product of its two loaded blocks: the casts are the identity on the extended reals and
    the accumulator is zero. -/
theorem product_block (x0 : Vec Ideal S5000x5 .f32) (x1 : Vec Ideal S5x128 .f32) :
    k0_pay1 x0 x1 = mm (m := 5000) (k := 5) (n := 128) x0 x1 := by
  unfold k0_pay1
  funext i
  obtain ⟨p, q, rfl⟩ : ∃ (p : Fin 5000) (q : Fin 128), i = ix2 p q := ⟨i 0, i 1, eq_ix2 i⟩
  exact matmul_zero_apply (M := 5000) (K := 5) (N := 128) dot_S5000x5_S5x128_S5000x128_1_0_0_1_n_n.wf none
    (truncf .bf16 x0 bitsLt_bf16_f32) (truncf .bf16 x1 bitsLt_bf16_f32) p q

/-- The body's one store writes the whole staging block, so what it leaves there is the product of the two blocks. -/
theorem stored_block (x0 : Vec Ideal S5000x5 .f32) (x1 : Vec Ideal S5x128 .f32) :
    out0_2 x0 x1 = mm (m := 5000) (k := 5) (n := 128) x0 x1 := by
  unfold out0_2
  rw [View.canon_unit_zero zeroOffsets]
  simp only [View.ld_unit_zero (S := S5000x5) zeroOffsets, View.ld_unit_zero (S := S5x128) zeroOffsets]
  exact product_block x0 x1

variable (V : (c : Dev nD) → (b : Ref sig .tc) → Buf (Elt Ideal) ((c : Thread nD τ).loc b))

/-- The three windows' index maps at each of the ten grid points: the left array's block and the output's block sit at
    row block t and column block 0; the weight's block is always block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A grid point is below ten. -/
theorem point_lt (t : Fin cfg0.N) : t.val < 10 := by
  have h : t.val < grid0.N := t.isLt
  rwa [N_0] at h

/-- Entry (p, j) of the left array's block at point t is entry (t*5000 + p, j) of the array. -/
theorem rowBlock_read (c : Dev nD) (t : Fin cfg0.N) (p : Fin 5000) (j : Fin 5) (h : t.val * 5000 + p.val < 50000) :
    iblk0 V c 0 t (ix2 p j)
      = (V c (Pipeline.arrRef spec0 0) : S50000x5.Idx → EReal) (ix2 (⟨t.val * 5000 + p.val, h⟩ : Fin 50000) j) := by
  obtain ⟨e0, e1, -, -, -, -⟩ := block_indices t
  show (V c (Pipeline.arrRef spec0 0) : S50000x5.Idx → EReal) (((cfg0.win 0).blk t).view.emb (ix2 p j)) = _
  refine congrArg (V c (Pipeline.arrRef spec0 0) : S50000x5.Idx → EReal) (funext fun a => Fin.ext ?_)
  match a with
  | ⟨0, _⟩ => show win0_0.index t (0 : Fin 2) * 5000 + 1 * p.val = t.val * 5000 + p.val; omega
  | ⟨1, _⟩ => show win0_0.index t (1 : Fin 2) * 5 + 1 * j.val = j.val; omega

/-- The weight's block at every point is the whole weight. -/
theorem weight_read (c : Dev nD) (t : Fin cfg0.N) (j : Fin 5) (q : Fin 128) :
    iblk0 V c 1 t (ix2 j q) = (V c (Pipeline.arrRef spec0 1) : S5x128.Idx → EReal) (ix2 j q) := by
  obtain ⟨-, -, e2, e3, -, -⟩ := block_indices t
  show (V c (Pipeline.arrRef spec0 1) : S5x128.Idx → EReal) (((cfg0.win 1).blk t).view.emb (ix2 j q)) = _
  refine congrArg (V c (Pipeline.arrRef spec0 1) : S5x128.Idx → EReal) (funext fun a => Fin.ext ?_)
  match a with
  | ⟨0, _⟩ => show win0_1.index t (0 : Fin 2) * 5 + 1 * j.val = j.val; omega
  | ⟨1, _⟩ => show win0_1.index t (1 : Fin 2) * 128 + 1 * q.val = q.val; omega

/-- Entry (p, q) of the output's block at point t sits at entry (t*5000 + p, q) of the output array. -/
theorem outBlock_emb (t : Fin cfg0.N) (p : Fin 5000) (q : Fin 128) (h : t.val * 5000 + p.val < 50000) :
    (((cfg0.win 2).blk t).view.emb (ix2 p q) : S50000x128.Idx) = ix2 (⟨t.val * 5000 + p.val, h⟩ : Fin 50000) q := by
  obtain ⟨-, -, -, -, e4, e5⟩ := block_indices t
  refine funext fun a => Fin.ext ?_
  match a with
  | ⟨0, _⟩ => show win0_2.index t (0 : Fin 2) * 5000 + 1 * p.val = t.val * 5000 + p.val; omega
  | ⟨1, _⟩ => show win0_2.index t (1 : Fin 2) * 128 + 1 * q.val = q.val; omega

/-- What point t writes back is block t of the product of the two arrays as the region found them. -/
theorem flushed_eq (c : Dev nD) (t : Fin cfg0.N) :
    (dat0 (F := Ideal) V c).flushed 2 t
      = ((cfg0.win 2).blk t).view.read (Elt Ideal)
          (mm (m := 50000) (k := 5) (n := 128) (V c (Pipeline.arrRef spec0 0)) (V c (Pipeline.arrRef spec0 1))) := by
  show (cfg0.win 2).cut (grid0.coords t) ((dat0 V c).after 2 t) = _
  rw [after0_2, stored_block]
  have ht := point_lt t
  funext y
  obtain ⟨p, q, rfl⟩ : ∃ (p : Fin 5000) (q : Fin 128), y = ix2 p q := ⟨y 0, y 1, eq_ix2 y⟩
  have hp : t.val * 5000 + p.val < 50000 := by have := p.isLt; omega
  show mm (m := 5000) (k := 5) (n := 128) (iblk0 V c 0 t) (iblk0 V c 1 t) (ix2 p q)
    = mm (m := 50000) (k := 5) (n := 128) (V c (Pipeline.arrRef spec0 0)) (V c (Pipeline.arrRef spec0 1))
        (((cfg0.win 2).blk t).view.emb (ix2 p q))
  rw [outBlock_emb t p q hp, mm_apply, mm_apply]
  refine Finset.sum_congr rfl fun j _ => ?_
  rw [rowBlock_read V c t p j hp, weight_read V c t j q]

/-- An index of the output array is in point t's block iff each coordinate is in the block's range on its axis. -/
theorem mem_rowBlock (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- Row r of the output array is in the block of point r / 5000, which writes its block back. -/
theorem rows_covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  obtain ⟨-, -, -, -, e4, e5⟩ := block_indices t
  refine ⟨t, flush0_2 t, ?_⟩
  rw [mem_rowBlock]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The output array after the region: the product of the left array and the weight as the region found them. -/
theorem value (c : Dev nD) :
    (dat0 (F := Ideal) V c).arrAt 2 cfg0.N
      = mm (m := 50000) (k := 5) (n := 128) (V c (Pipeline.arrRef spec0 0)) (V c (Pipeline.arrRef spec0 1)) :=
  (dat0 (F := Ideal) V c).arrAt_eq_of_cover 2 _ (fun t _ => flushed_eq V c t) rows_covered

end Cert.Bridge.RegMm0

end
-- ==== Proof.RegMm2.lean ====
/-
  The second matrix-product region: a [50000, 128] array times a [128, 128] weight, taken 5000 rows at a time over ten
  grid points. Each point reads rows t*5000 .. t*5000+4999 of the left array and the whole weight, forms their product
  into a zero accumulator (the left block first recast to its own shape and both operands cast to a narrower float
  format, all identities on the extended reals), and writes it to the same rows of the output array. The ten row
  blocks tile the output, so the output array ends holding the product of the two arrays as the region found them.
-/
import proofs.«124550_j48266842472715_1_alg».proof.Proof.Gen.KernelIdeal.Frame
import proofs.«124550_j48266842472715_1_alg».proof.Proof.LibDenseLayers
import Idealize.ShloMosaic.Lib.ValueIdx
import Idealize.ShloMosaic.Lib.Pipeline.Value
import Idealize.ShloMosaic.PureOps.Ideal.Laws

noncomputable section

namespace Cert.Bridge.RegMm2

open Idealize.ShloMosaic Idealize.ShloMosaic.ValueIdx Cert.KernelIdeal Cert.KernelIdeal.Gen Cert.Layers
open Cert.LibMatmulPlain Idealize.ShloMosaic.TcCoe
open Idealize.ShloMosaic.Pipeline (Dat)

/-- The offsets of a whole-block access are zero on both axes. -/
theorem zeroOffsets : (![0, 0] : Fin 2 → Nat) = fun _ => 0 := funext fun a => by fin_cases a <;> rfl

/-- The value the body stores is the product of its two loaded blocks: the recast to the same shape and the casts to the
    narrower format are the identity on the extended reals, and the accumulator is zero. -/
theorem product_block (x0 : Vec Ideal S5000x128 .f32) (x1 : Vec Ideal S128x128 .f32) :
    k2_pay1 x0 x1 = mm (m := 5000) (k := 128) (n := 128) x0 x1 := by
  unfold k2_pay1
  funext i
  obtain ⟨p, q, rfl⟩ : ∃ (p : Fin 5000) (q : Fin 128), i = ix2 p q := ⟨i 0, i 1, eq_ix2 i⟩
  refine (matmul_zero_apply (M := 5000) (K := 128) (N := 128) dot_S5000x128_S128x128_S5000x128_1_0_0_1_n_n.wf none
    (truncf .bf16 (shapeCast S5000x128 x0 shapeCasts_S5000x128_S5000x128) bitsLt_bf16_f32)
    (truncf .bf16 x1 bitsLt_bf16_f32) p q).trans ?_
  rw [shapeCast_self x0 shapeCasts_S5000x128_S5000x128]
  rfl

/-- The body's one store writes the whole staging block, so what it leaves there is the product of the two blocks. -/
theorem stored_block (x0 : Vec Ideal S5000x128 .f32) (x1 : Vec Ideal S128x128 .f32) :
    out2_2 x0 x1 = mm (m := 5000) (k := 128) (n := 128) x0 x1 := by
  unfold out2_2
  rw [View.canon_unit_zero zeroOffsets]
  simp only [View.ld_unit_zero (S := S5000x128) zeroOffsets, View.ld_unit_zero (S := S128x128) zeroOffsets]
  exact product_block x0 x1

variable (V : (c : Dev nD) → (b : Ref sig .tc) → Buf (Elt Ideal) ((c : Thread nD τ).loc b))

/-- The three windows' index maps at each of the ten grid points: the left array's block and the output's block sit at
    row block t and column block 0; the weight's block is always block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A grid point is below ten. -/
theorem point_lt (t : Fin cfg2.N) : t.val < 10 := by
  have h : t.val < grid2.N := t.isLt
  rwa [N_2] at h

/-- Entry (p, j) of the left array's block at point t is entry (t*5000 + p, j) of the array. -/
theorem rowBlock_read (c : Dev nD) (t : Fin cfg2.N) (p : Fin 5000) (j : Fin 128) (h : t.val * 5000 + p.val < 50000) :
    iblk2 V c 0 t (ix2 p j)
      = (V c (Pipeline.arrRef spec2 0) : S50000x128.Idx → EReal) (ix2 (⟨t.val * 5000 + p.val, h⟩ : Fin 50000) j) := by
  obtain ⟨e0, e1, -, -, -, -⟩ := block_indices t
  show (V c (Pipeline.arrRef spec2 0) : S50000x128.Idx → EReal) (((cfg2.win 0).blk t).view.emb (ix2 p j)) = _
  refine congrArg (V c (Pipeline.arrRef spec2 0) : S50000x128.Idx → EReal) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * j.val = j.val; omega

/-- The weight's block at every point is the whole weight. -/
theorem weight_read (c : Dev nD) (t : Fin cfg2.N) (j : Fin 128) (q : Fin 128) :
    iblk2 V c 1 t (ix2 j q) = (V c (Pipeline.arrRef spec2 1) : S128x128.Idx → EReal) (ix2 j q) := by
  obtain ⟨-, -, e2, e3, -, -⟩ := block_indices t
  show (V c (Pipeline.arrRef spec2 1) : S128x128.Idx → EReal) (((cfg2.win 1).blk t).view.emb (ix2 j q)) = _
  refine congrArg (V c (Pipeline.arrRef spec2 1) : S128x128.Idx → EReal) (funext fun a => Fin.ext ?_)
  match a with
  | ⟨0, _⟩ => show win2_1.index t (0 : Fin 2) * 128 + 1 * j.val = j.val; omega
  | ⟨1, _⟩ => show win2_1.index t (1 : Fin 2) * 128 + 1 * q.val = q.val; omega

/-- Entry (p, q) of the output's block at point t sits at entry (t*5000 + p, q) of the output array. -/
theorem outBlock_emb (t : Fin cfg2.N) (p : Fin 5000) (q : Fin 128) (h : t.val * 5000 + p.val < 50000) :
    (((cfg2.win 2).blk t).view.emb (ix2 p q) : S50000x128.Idx) = ix2 (⟨t.val * 5000 + p.val, h⟩ : Fin 50000) q := by
  obtain ⟨-, -, -, -, e4, e5⟩ := block_indices t
  refine funext fun a => Fin.ext ?_
  match a with
  | ⟨0, _⟩ => show win2_2.index t (0 : Fin 2) * 5000 + 1 * p.val = t.val * 5000 + p.val; omega
  | ⟨1, _⟩ => show win2_2.index t (1 : Fin 2) * 128 + 1 * q.val = q.val; omega

/-- What point t writes back is block t of the product of the two arrays as the region found them. -/
theorem flushed_eq (c : Dev nD) (t : Fin cfg2.N) :
    (dat2 (F := Ideal) V c).flushed 2 t
      = ((cfg2.win 2).blk t).view.read (Elt Ideal)
          (mm (m := 50000) (k := 128) (n := 128) (V c (Pipeline.arrRef spec2 0)) (V c (Pipeline.arrRef spec2 1))) := by
  show (cfg2.win 2).cut (grid2.coords t) ((dat2 V c).after 2 t) = _
  rw [after2_2, stored_block]
  have ht := point_lt t
  funext y
  obtain ⟨p, q, rfl⟩ : ∃ (p : Fin 5000) (q : Fin 128), y = ix2 p q := ⟨y 0, y 1, eq_ix2 y⟩
  have hp : t.val * 5000 + p.val < 50000 := by have := p.isLt; omega
  show mm (m := 5000) (k := 128) (n := 128) (iblk2 V c 0 t) (iblk2 V c 1 t) (ix2 p q)
    = mm (m := 50000) (k := 128) (n := 128) (V c (Pipeline.arrRef spec2 0)) (V c (Pipeline.arrRef spec2 1))
        (((cfg2.win 2).blk t).view.emb (ix2 p q))
  rw [outBlock_emb t p q hp, mm_apply, mm_apply]
  refine Finset.sum_congr rfl fun j _ => ?_
  rw [rowBlock_read V c t p j hp, weight_read V c t j q]

/-- An index of the output array is in point t's block iff each coordinate is in the block's range on its axis. -/
theorem mem_rowBlock (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v48).slice (win2_2.rect t)).set ↔ _
  rw [View.set_slice_whole, Rect.mem_set_unit]
  exact Iff.rfl

/-- Row r of the output array is in the block of point r / 5000, which writes its block back. -/
theorem rows_covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by show _ < grid2.N; rw [N_2]; omega⟩, rfl⟩
  obtain ⟨-, -, -, -, e4, e5⟩ := block_indices t
  refine ⟨t, flush2_2 t, ?_⟩
  rw [mem_rowBlock]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- The output array after the region: the product of the left array and the weight as the region found them. -/
theorem value (c : Dev nD) :
    (dat2 (F := Ideal) V c).arrAt 2 cfg2.N
      = mm (m := 50000) (k := 128) (n := 128) (V c (Pipeline.arrRef spec2 0)) (V c (Pipeline.arrRef spec2 1)) :=
  (dat2 (F := Ideal) V c).arrAt_eq_of_cover 2 _ (fun t _ => flushed_eq V c t) rows_covered

end Cert.Bridge.RegMm2

end
-- ==== Proof.RegMm4.lean ====
/-
  The third matrix-product region: a [50000, 128] array times a [128, 128] weight, taken 5000 rows at a time over ten
  grid points. Each point reads rows t*5000 .. t*5000+4999 of the left array and the whole weight, forms their product
  into a zero accumulator (the left block first recast to its own shape and both operands cast to a narrower float
  format, all identities on the extended reals), and writes it to the same rows of the output array. The ten row
  blocks tile the output, so the output array ends holding the product of the two arrays as the region found them.
-/
import proofs.«124550_j48266842472715_1_alg».proof.Proof.Gen.KernelIdeal.Frame
import proofs.«124550_j48266842472715_1_alg».proof.Proof.LibDenseLayers
import Idealize.ShloMosaic.Lib.ValueIdx
import Idealize.ShloMosaic.Lib.Pipeline.Value
import Idealize.ShloMosaic.PureOps.Ideal.Laws

noncomputable section

namespace Cert.Bridge.RegMm4

open Idealize.ShloMosaic Idealize.ShloMosaic.ValueIdx Cert.KernelIdeal Cert.KernelIdeal.Gen Cert.Layers
open Cert.LibMatmulPlain Idealize.ShloMosaic.TcCoe
open Idealize.ShloMosaic.Pipeline (Dat)

/-- The offsets of a whole-block access are zero on both axes. -/
theorem zeroOffsets : (![0, 0] : Fin 2 → Nat) = fun _ => 0 := funext fun a => by fin_cases a <;> rfl

/-- The value the body stores is the product of its two loaded blocks: the recast to the same shape and the casts to the
    narrower format are the identity on the extended reals, and the accumulator is zero. -/
theorem product_block (x0 : Vec Ideal S5000x128 .f32) (x1 : Vec Ideal S128x128 .f32) :
    k4_pay1 x0 x1 = mm (m := 5000) (k := 128) (n := 128) x0 x1 := by
  unfold k4_pay1
  funext i
  obtain ⟨p, q, rfl⟩ : ∃ (p : Fin 5000) (q : Fin 128), i = ix2 p q := ⟨i 0, i 1, eq_ix2 i⟩
  refine (matmul_zero_apply (M := 5000) (K := 128) (N := 128) dot_S5000x128_S128x128_S5000x128_1_0_0_1_n_n.wf none
    (truncf .bf16 (shapeCast S5000x128 x0 shapeCasts_S5000x128_S5000x128) bitsLt_bf16_f32)
    (truncf .bf16 x1 bitsLt_bf16_f32) p q).trans ?_
  rw [shapeCast_self x0 shapeCasts_S5000x128_S5000x128]
  rfl

/-- The body's one store writes the whole staging block, so what it leaves there is the product of the two blocks. -/
theorem stored_block (x0 : Vec Ideal S5000x128 .f32) (x1 : Vec Ideal S128x128 .f32) :
    out4_2 x0 x1 = mm (m := 5000) (k := 128) (n := 128) x0 x1 := by
  unfold out4_2
  rw [View.canon_unit_zero zeroOffsets]
  simp only [View.ld_unit_zero (S := S5000x128) zeroOffsets, View.ld_unit_zero (S := S128x128) zeroOffsets]
  exact product_block x0 x1

variable (V : (c : Dev nD) → (b : Ref sig .tc) → Buf (Elt Ideal) ((c : Thread nD τ).loc b))

/-- The three windows' index maps at each of the ten grid points: the left array's block and the output's block sit at
    row block t and column block 0; the weight's block is always block (0, 0). -/
theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- A grid point is below ten. -/
theorem point_lt (t : Fin cfg4.N) : t.val < 10 := by
  have h : t.val < grid4.N := t.isLt
  rwa [N_4] at h

/-- Entry (p, j) of the left array's block at point t is entry (t*5000 + p, j) of the array. -/
theorem rowBlock_read (c : Dev nD) (t : Fin cfg4.N) (p : Fin 5000) (j : Fin 128) (h : t.val * 5000 + p.val < 50000) :
    iblk4 V c 0 t (ix2 p j)
      = (V c (Pipeline.arrRef spec4 0) : S50000x128.Idx → EReal) (ix2 (⟨t.val * 5000 + p.val, h⟩ : Fin 50000) j) := by
  obtain ⟨e0, e1, -, -, -, -⟩ := block_indices t
  show (V c (Pipeline.arrRef spec4 0) : S50000x128.Idx → EReal) (((cfg4.win 0).blk t).view.emb (ix2 p j)) = _
  refine congrArg (V c (Pipeline.arrRef spec4 0) : S50000x128.Idx → EReal) (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * j.val = j.val; omega

/-- The weight's block at every point is the whole weight. -/
theorem weight_read (c : Dev nD) (t : Fin cfg4.N) (j : Fin 128) (q : Fin 128) :
    iblk4 V c 1 t (ix2 j q) = (V c (Pipeline.arrRef spec4 1) : S128x128.Idx → EReal) (ix2 j q) := by
  obtain ⟨-, -, e2, e3, -, -⟩ := block_indices t
  show (V c (Pipeline.arrRef spec4 1) : S128x128.Idx → EReal) (((cfg4.win 1).blk t).view.emb (ix2 j q)) = _
  refine congrArg (V c (Pipeline.arrRef spec4 1) : S128x128.Idx → EReal) (funext fun a => Fin.ext ?_)
  match a with
  | ⟨0, _⟩ => show win4_1.index t (0 : Fin 2) * 128 + 1 * j.val = j.val; omega
  | ⟨1, _⟩ => show win4_1.index t (1 : Fin 2) * 128 + 1 * q.val = q.val; omega

/-- Entry (p, q) of the output's block at point t sits at entry (t*5000 + p, q) of the output array. -/
theorem outBlock_emb (t : Fin cfg4.N) (p : Fin 5000) (q : Fin 128) (h : t.val * 5000 + p.val < 50000) :
    (((cfg4.win 2).blk t).view.emb (ix2 p q) : S50000x128.Idx) = ix2 (⟨t.val * 5000 + p.val, h⟩ : Fin 50000) q := by
  obtain ⟨-, -, -, -, e4, e5⟩ := block_indices t
  refine funext fun a => Fin.ext ?_
  match a with
  | ⟨0, _⟩ => show win4_2.index t (0 : Fin 2) * 5000 + 1 * p.val = t.val * 5000 + p.val; omega
  | ⟨1, _⟩ => show win4_2.index t (1 : Fin 2) * 128 + 1 * q.val = q.val; omega

/-- What point t writes back is block t of the product of the two arrays as the region found them. -/
theorem flushed_eq (c : Dev nD) (t : Fin cfg4.N) :
    (dat4 (F := Ideal) V c).flushed 2 t
      = ((cfg4.win 2).blk t).view.read (Elt Ideal)
          (mm (m := 50000) (k := 128) (n := 128) (V c (Pipeline.arrRef spec4 0)) (V c (Pipeline.arrRef spec4 1))) := by
  show (cfg4.win 2).cut (grid4.coords t) ((dat4 V c).after 2 t) = _
  rw [after4_2, stored_block]
  have ht := point_lt t
  funext y
  obtain ⟨p, q, rfl⟩ : ∃ (p : Fin 5000) (q : Fin 128), y = ix2 p q := ⟨y 0, y 1, eq_ix2 y⟩
  have hp : t.val * 5000 + p.val < 50000 := by have := p.isLt; omega
  show mm (m := 5000) (k := 128) (n := 128) (iblk4 V c 0 t) (iblk4 V c 1 t) (ix2 p q)
    = mm (m := 50000) (k := 128) (n := 128) (V c (Pipeline.arrRef spec4 0)) (V c (Pipeline.arrRef spec4 1))
        (((cfg4.win 2).blk t).view.emb (ix2 p q))
  rw [outBlock_emb t p q hp, mm_apply, mm_apply]
  refine Finset.sum_congr rfl fun j _ => ?_
  rw [rowBlock_read V c t p j hp, weight_read V c t j q]

/-- An index of the output array is in point t's block iff each coordinate is in the block's range on its axis. -/
theorem mem_rowBlock (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v69).slice (win4_2.rect t)).set ↔ _
  rw [View.set_slice_whole, Rect.mem_set_unit]
  exact Iff.rfl

/-- Row r of the output array is in the block of point r / 5000, which writes its block back. -/
theorem rows_covered (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, by show _ < grid4.N; rw [N_4]; omega⟩, rfl⟩
  obtain ⟨-, -, -, -, e4, e5⟩ := block_indices t
  refine ⟨t, flush4_2 t, ?_⟩
  rw [mem_rowBlock]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

/-- The output array after the region: the product of the left array and the weight as the region found them. -/
theorem value (c : Dev nD) :
    (dat4 (F := Ideal) V c).arrAt 2 cfg4.N
      = mm (m := 50000) (k := 128) (n := 128) (V c (Pipeline.arrRef spec4 0)) (V c (Pipeline.arrRef spec4 1)) :=
  (dat4 (F := Ideal) V c).arrAt_eq_of_cover 2 _ (fun t _ => flushed_eq V c t) rows_covered

end Cert.Bridge.RegMm4

end
-- ==== Proof.RegMm6.lean ====
/-
  The last matrix-product region: a [64, 128] array times a [128, 64] weight, taken whole at the one grid point. The
  point reads both arrays entire, forms their product into a zero accumulator (the left operand first recast to its own
  shape and both operands cast to a narrower float format, all identities on the extended reals), and writes it to the
  whole [64, 64] output array. The one block is the whole output, so the output array ends holding the product of the
  two arrays as the region found them.
-/
import proofs.«124550_j48266842472715_1_alg».proof.Proof.Gen.KernelIdeal.Frame
import proofs.«124550_j48266842472715_1_alg».proof.Proof.LibDenseLayers
import Idealize.ShloMosaic.Lib.ValueIdx
import Idealize.ShloMosaic.Lib.Pipeline.Value
import Idealize.ShloMosaic.PureOps.Ideal.Laws

noncomputable section

namespace Cert.Bridge.RegMm6

open Idealize.ShloMosaic Idealize.ShloMosaic.ValueIdx Cert.KernelIdeal Cert.KernelIdeal.Gen Cert.Layers
open Cert.LibMatmulPlain Idealize.ShloMosaic.TcCoe
open Idealize.ShloMosaic.Pipeline (Dat)

/-- The offsets of a whole-block access are zero on both axes. -/
theorem zeroOffsets : (![0, 0] : Fin 2 → Nat) = fun _ => 0 := funext fun a => by fin_cases a <;> rfl

/-- The value the body stores is the product of its two loaded blocks: the recast to the same shape and the casts to the
    narrower format are the identity on the extended reals, and the accumulator is zero. -/
theorem product_block (x0 : Vec Ideal S64x128 .f32) (x1 : Vec Ideal S128x64 .f32) :
    k6_pay1 x0 x1 = mm (m := 64) (k := 128) (n := 64) x0 x1 := by
  unfold k6_pay1
  funext i
  obtain ⟨p, q, rfl⟩ : ∃ (p : Fin 64) (q : Fin 64), i = ix2 p q := ⟨i 0, i 1, eq_ix2 i⟩
  refine (matmul_zero_apply (M := 64) (K := 128) (N := 64) dot_S64x128_S128x64_S64x64_1_0_0_1_n_n.wf none
    (truncf .bf16 (shapeCast S64x128 x0 shapeCasts_S64x128_S64x128) bitsLt_bf16_f32)
    (truncf .bf16 x1 bitsLt_bf16_f32) p q).trans ?_
  rw [shapeCast_self x0 shapeCasts_S64x128_S64x128]
  rfl

/-- The body's one store writes the whole staging block, so what it leaves there is the product of the two blocks. -/
theorem stored_block (x0 : Vec Ideal S64x128 .f32) (x1 : Vec Ideal S128x64 .f32) :
    out6_2 x0 x1 = mm (m := 64) (k := 128) (n := 64) x0 x1 := by
  unfold out6_2
  rw [View.canon_unit_zero zeroOffsets]
  simp only [View.ld_unit_zero (S := S64x128) zeroOffsets, View.ld_unit_zero (S := S128x64) zeroOffsets]
  exact product_block x0 x1

variable (V : (c : Dev nD) → (b : Ref sig .tc) → Buf (Elt Ideal) ((c : Thread nD τ).loc b))

/-- The three windows' index maps at the one grid point: every window's block is block (0, 0). -/
theorem block_indices : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

/-- The left array's block at the point is the whole array. -/
theorem left_read (c : Dev nD) (t : Fin cfg6.N) (p : Fin 64) (j : Fin 128) :
    iblk6 V c 0 t (ix2 p j) = (V c (Pipeline.arrRef spec6 0) : S64x128.Idx → EReal) (ix2 p j) := by
  obtain ⟨e0, e1, -, -, -, -⟩ := block_indices t
  show (V c (Pipeline.arrRef spec6 0) : S64x128.Idx → EReal) (((cfg6.win 0).blk t).view.emb (ix2 p j)) = _
  refine congrArg (V c (Pipeline.arrRef spec6 0) : S64x128.Idx → EReal) (funext fun a => Fin.ext ?_)
  match a with
  | ⟨0, _⟩ => show win6_0.index t (0 : Fin 2) * 64 + 1 * p.val = p.val; omega
  | ⟨1, _⟩ => show win6_0.index t (1 : Fin 2) * 128 + 1 * j.val = j.val; omega

/-- The weight's block at the point is the whole weight. -/
theorem weight_read (c : Dev nD) (t : Fin cfg6.N) (j : Fin 128) (q : Fin 64) :
    iblk6 V c 1 t (ix2 j q) = (V c (Pipeline.arrRef spec6 1) : S128x64.Idx → EReal) (ix2 j q) := by
  obtain ⟨-, -, e2, e3, -, -⟩ := block_indices t
  show (V c (Pipeline.arrRef spec6 1) : S128x64.Idx → EReal) (((cfg6.win 1).blk t).view.emb (ix2 j q)) = _
  refine congrArg (V c (Pipeline.arrRef spec6 1) : S128x64.Idx → EReal) (funext fun a => Fin.ext ?_)
  match a with
  | ⟨0, _⟩ => show win6_1.index t (0 : Fin 2) * 128 + 1 * j.val = j.val; omega
  | ⟨1, _⟩ => show win6_1.index t (1 : Fin 2) * 64 + 1 * q.val = q.val; omega

/-- Entry (p, q) of the output's block sits at entry (p, q) of the output array. -/
theorem outBlock_emb (t : Fin cfg6.N) (p : Fin 64) (q : Fin 64) :
    (((cfg6.win 2).blk t).view.emb (ix2 p q) : S64x64.Idx) = ix2 p q := by
  obtain ⟨-, -, -, -, e4, e5⟩ := block_indices t
  refine funext fun a => Fin.ext ?_
  match a with
  | ⟨0, _⟩ => show win6_2.index t (0 : Fin 2) * 64 + 1 * p.val = p.val; omega
  | ⟨1, _⟩ => show win6_2.index t (1 : Fin 2) * 64 + 1 * q.val = q.val; omega

/-- What the point writes back is its block of the product of the two arrays as the region found them. -/
theorem flushed_eq (c : Dev nD) (t : Fin cfg6.N) :
    (dat6 (F := Ideal) V c).flushed 2 t
      = ((cfg6.win 2).blk t).view.read (Elt Ideal)
          (mm (m := 64) (k := 128) (n := 64) (V c (Pipeline.arrRef spec6 0)) (V c (Pipeline.arrRef spec6 1))) := by
  show (cfg6.win 2).cut (grid6.coords t) ((dat6 V c).after 2 t) = _
  rw [after6_2, stored_block]
  funext y
  obtain ⟨p, q, rfl⟩ : ∃ (p : Fin 64) (q : Fin 64), y = ix2 p q := ⟨y 0, y 1, eq_ix2 y⟩
  show mm (m := 64) (k := 128) (n := 64) (iblk6 V c 0 t) (iblk6 V c 1 t) (ix2 p q)
    = mm (m := 64) (k := 128) (n := 64) (V c (Pipeline.arrRef spec6 0)) (V c (Pipeline.arrRef spec6 1))
        (((cfg6.win 2).blk t).view.emb (ix2 p q))
  rw [outBlock_emb t p q, mm_apply, mm_apply]
  refine Finset.sum_congr rfl fun j _ => ?_
  rw [left_read V c t p j, weight_read V c t j q]

/-- An index of the output array is in the point's block iff each coordinate is in the block's range on its axis. -/
theorem mem_outBlock (t : Fin cfg6.N) (i : S64x64.Idx) :
    i ∈ ((cfg6.win 2).blk t).view.set ↔ ∀ a : Fin 2, win6_2.index t a * S64x64.size a ≤ (i a).val
      ∧ (i a).val < win6_2.index t a * S64x64.size a + S64x64.size a := by
  show i ∈ ((View.whole main_v102).slice (win6_2.rect t)).set ↔ _
  rw [View.set_slice_whole, Rect.mem_set_unit]
  exact Iff.rfl

/-- Every index of the output array is in the one point's block, which is written back. -/
theorem all_covered (i : S64x64.Idx) :
    ∃ t : Fin cfg6.N, (cfg6.win 2).flush t = true ∧ i ∈ ((cfg6.win 2).blk t).view.set := by
  have hi0 : (i 0).val < 64 := (i 0).isLt
  have hi1 : (i 1).val < 64 := (i 1).isLt
  obtain ⟨-, -, -, -, e4, e5⟩ := block_indices t6_0
  refine ⟨t6_0, flush6_2 t6_0, ?_⟩
  rw [mem_outBlock]
  intro a
  match a with
  | ⟨0, _⟩ =>
    show win6_2.index t6_0 (0 : Fin 2) * 64 ≤ (i 0).val ∧ (i 0).val < win6_2.index t6_0 (0 : Fin 2) * 64 + 64
    omega
  | ⟨1, _⟩ =>
    show win6_2.index t6_0 (1 : Fin 2) * 64 ≤ (i 1).val ∧ (i 1).val < win6_2.index t6_0 (1 : Fin 2) * 64 + 64
    omega

/-- The output array after the region: the product of the left array and the weight as the region found them. -/
theorem value (c : Dev nD) :
    (dat6 (F := Ideal) V c).arrAt 2 cfg6.N
      = mm (m := 64) (k := 128) (n := 64) (V c (Pipeline.arrRef spec6 0)) (V c (Pipeline.arrRef spec6 1)) :=
  (dat6 (F := Ideal) V c).arrAt_eq_of_cover 2 _ (fun t _ => flushed_eq V c t) all_covered

end Cert.Bridge.RegMm6

end
-- ==== Proof.RegBn1.lean ====
/-
  One elementwise region of the kernel, read as a whole-array formula on the extended reals.

  The region walks a [50000, 128] array a in ten blocks of 5000 rows. At each block it multiplies every row,
  entry by entry, by the one row sc [1, 128], adds the one row cb [1, 128], takes the maximum with the value of
  the all-zero f32 word, and stores the block of the result. Block t of the result therefore holds, at (p, q),
  max (a(5000 t + p, q) · sc(0, q) + cb(0, q), 0); row r of the array lies in block r / 5000, the ten blocks fill
  the array, so after the region the output array is  affRect a sc cb  at every index.
-/
import proofs.«124550_j48266842472715_1_alg».proof.Proof.Gen.KernelIdeal.Frame
import proofs.«124550_j48266842472715_1_alg».proof.Proof.Spec
import Idealize.ShloMosaic.Lib.ValueIdx
import Idealize.ShloMosaic.Lib.ValueLayout
import Idealize.ShloMosaic.Lib.Pipeline.Value

set_option maxRecDepth 16384

noncomputable section

namespace Cert.Bridge.RegBn1

open Idealize.ShloMosaic Idealize.ShloMosaic.ValueIdx Idealize.ShloMosaic.TcCoe Cert.KernelIdeal Cert.KernelIdeal.Gen Cert.Layers Cert.Bridge
open Idealize.ShloMosaic.Pipeline (Dat)

/-- The offset (0, 0) is the zero offset. -/
theorem zero_off : (![0, 0] : Fin 2 → Nat) = fun _ => 0 := funext fun a => by fin_cases a <;> rfl

/-- The body's arithmetic at entry (p, q) of a block: the block's entry times the scale row's entry q, plus the shift
    row's entry q, against zero. The three reshapes are identities; a [1, 128] row repeated down 5000 rows reads its
    one row at q; the maximum against a repeated scalar is the maximum with that scalar's value. -/
theorem payload_apply (x0 : Vec Ideal S5000x128 .f32) (x1 x2 : Vec Ideal S1x128 .f32) (p : Fin 5000) (q : Fin 128) :
    k1_pay1 x0 x1 x2 (ix2 p q) = max (x0 (ix2 p q) * x1 (ix2 0 q) + x2 (ix2 0 q)) (Ideal.ofBits .f32 0x00000000#32) := by
  unfold k1_pay1
  simp only [shapeCast_self]
  show max (x0 (ix2 p q) * broadcastTo S5000x128 x1 broadcasts_S1x128_S5000x128 (ix2 p q)
      + broadcastTo S5000x128 x2 broadcasts_S1x128_S5000x128 (ix2 p q)) (Ideal.ofBits .f32 0x00000000#32) = _
  rw [broadcastTo_1b_ab_apply (a := 5000) (b := 128) x1 broadcasts_S1x128_S5000x128 p q,
    broadcastTo_1b_ab_apply (a := 5000) (b := 128) x2 broadcasts_S1x128_S5000x128 p q]

/-- The body's one store writes the whole output block, from whole-block loads: what it leaves in the output block is
    its arithmetic applied to the three input blocks. -/
theorem out_eq {F : FTy → Type} [FloatOps F] (x0 : Vec F S5000x128 .f32) (x1 x2 : Vec F S1x128 .f32) :
    out1_3 x0 x1 x2 = k1_pay1 x0 x1 x2 := by
  unfold out1_3
  rw [View.canon_unit_zero zero_off]
  simp only [View.ld_unit_zero (S := S5000x128) zero_off, View.ld_unit_zero (S := S1x128) zero_off]

/-- Where the four windows' blocks sit at grid point t, decided over the ten points: the input array's and the output
    array's block is (t, 0); each one-row operand's block is always (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The function the output array ends holding: the scale-shift-rectify formula of the three input arrays as the
    region finds them. -/
abbrev G (c : Dev nD) : Mat 50000 128 :=
  affRect (m := 50000) (n := 128) (V c (Pipeline.arrRef spec1 0)) (V c (Pipeline.arrRef spec1 1)) (V c (Pipeline.arrRef spec1 2))

/-- What grid point t writes back is block t of that function. Entry (p, q) of the block sits at row
    5000 t + p, column q of the array; the input block's entry (p, q) is the input array's entry there, and each
    one-row block's entry (0, q) is its array's entry (0, q). -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3, out_eq]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  refine (payload_apply _ _ _ p q).trans ?_
  have h0 : iblk1 V c 0 t (ix2 p q)
      = (V c (Pipeline.arrRef spec1 0) : S50000x128.Idx → EReal) (((cfg1.win 3).blk t).view.emb (ix2 p q)) := by
    show (V c (Pipeline.arrRef spec1 0) : S50000x128.Idx → EReal) (((cfg1.win 0).blk t).view.emb (ix2 p q)) = _
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have h1 : iblk1 V c 1 t (ix2 0 q)
      = (V c (Pipeline.arrRef spec1 1) : S1x128.Idx → EReal) (ix2 0 ((((cfg1.win 3).blk t).view.emb (ix2 p q)) 1)) := by
    show (V c (Pipeline.arrRef spec1 1) : S1x128.Idx → EReal) (((cfg1.win 1).blk t).view.emb (ix2 0 q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  have h2 : iblk1 V c 2 t (ix2 0 q)
      = (V c (Pipeline.arrRef spec1 2) : S1x128.Idx → EReal) (ix2 0 ((((cfg1.win 3).blk t).view.emb (ix2 p q)) 1)) := by
    show (V c (Pipeline.arrRef spec1 2) : S1x128.Idx → EReal) (((cfg1.win 2).blk t).view.emb (ix2 0 q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [h0, h1, h2]
  rfl

/-- An index of the output array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v47).slice (win1_3.rect t)).set ↔ _
  rw [View.set_slice_whole, Rect.mem_set_unit]
  exact Iff.rfl

/-- Row r of the output array lies in the block of point r / 5000, and every point writes its block back: the ten
    blocks fill the array. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show _ < grid1.N; rw [hN]; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- The output array after the region: entry (p, q) is max (a(p,q) · sc(0,q) + cb(0,q), 0) of the three input arrays
    as the region finds them. -/
theorem value (c : Dev nD) :
    (dat1 (F := Ideal) V c).arrAt 3 cfg1.N
      = affRect (m := 50000) (n := 128) (V c (Pipeline.arrRef spec1 0)) (V c (Pipeline.arrRef spec1 1)) (V c (Pipeline.arrRef spec1 2)) :=
  (dat1 V c).arrAt_eq_of_cover 3 (G V c) (fun t _ => flushed_eq V c t) cover

end Cert.Bridge.RegBn1

end
-- ==== Proof.RegBn3.lean ====
/-
  One elementwise region of the kernel, read as a whole-array formula on the extended reals.

  The region walks a [50000, 128] array a in ten blocks of 5000 rows. At each block it multiplies every row,
  entry by entry, by the one row sc [1, 128], adds the one row cb [1, 128], takes the maximum with the value of
  the all-zero f32 word, and stores the block of the result. Block t of the result therefore holds, at (p, q),
  max (a(5000 t + p, q) · sc(0, q) + cb(0, q), 0); row r of the array lies in block r / 5000, the ten blocks fill
  the array, so after the region the output array is  affRect a sc cb  at every index.
-/
import proofs.«124550_j48266842472715_1_alg».proof.Proof.Gen.KernelIdeal.Frame
import proofs.«124550_j48266842472715_1_alg».proof.Proof.Spec
import Idealize.ShloMosaic.Lib.ValueIdx
import Idealize.ShloMosaic.Lib.ValueLayout
import Idealize.ShloMosaic.Lib.Pipeline.Value

set_option maxRecDepth 16384

noncomputable section

namespace Cert.Bridge.RegBn3

open Idealize.ShloMosaic Idealize.ShloMosaic.ValueIdx Idealize.ShloMosaic.TcCoe Cert.KernelIdeal Cert.KernelIdeal.Gen Cert.Layers Cert.Bridge
open Idealize.ShloMosaic.Pipeline (Dat)

/-- The offset (0, 0) is the zero offset. -/
theorem zero_off : (![0, 0] : Fin 2 → Nat) = fun _ => 0 := funext fun a => by fin_cases a <;> rfl

/-- The body's arithmetic at entry (p, q) of a block: the block's entry times the scale row's entry q, plus the shift
    row's entry q, against zero. The three reshapes are identities; a [1, 128] row repeated down 5000 rows reads its
    one row at q; the maximum against a repeated scalar is the maximum with that scalar's value. -/
theorem payload_apply (x0 : Vec Ideal S5000x128 .f32) (x1 x2 : Vec Ideal S1x128 .f32) (p : Fin 5000) (q : Fin 128) :
    k3_pay1 x0 x1 x2 (ix2 p q) = max (x0 (ix2 p q) * x1 (ix2 0 q) + x2 (ix2 0 q)) (Ideal.ofBits .f32 0x00000000#32) := by
  unfold k3_pay1
  simp only [shapeCast_self]
  show max (x0 (ix2 p q) * broadcastTo S5000x128 x1 broadcasts_S1x128_S5000x128 (ix2 p q)
      + broadcastTo S5000x128 x2 broadcasts_S1x128_S5000x128 (ix2 p q)) (Ideal.ofBits .f32 0x00000000#32) = _
  rw [broadcastTo_1b_ab_apply (a := 5000) (b := 128) x1 broadcasts_S1x128_S5000x128 p q,
    broadcastTo_1b_ab_apply (a := 5000) (b := 128) x2 broadcasts_S1x128_S5000x128 p q]

/-- The body's one store writes the whole output block, from whole-block loads: what it leaves in the output block is
    its arithmetic applied to the three input blocks. -/
theorem out_eq {F : FTy → Type} [FloatOps F] (x0 : Vec F S5000x128 .f32) (x1 x2 : Vec F S1x128 .f32) :
    out3_3 x0 x1 x2 = k3_pay1 x0 x1 x2 := by
  unfold out3_3
  rw [View.canon_unit_zero zero_off]
  simp only [View.ld_unit_zero (S := S5000x128) zero_off, View.ld_unit_zero (S := S1x128) zero_off]

/-- Where the four windows' blocks sit at grid point t, decided over the ten points: the input array's and the output
    array's block is (t, 0); each one-row operand's block is always (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The function the output array ends holding: the scale-shift-rectify formula of the three input arrays as the
    region finds them. -/
abbrev G (c : Dev nD) : Mat 50000 128 :=
  affRect (m := 50000) (n := 128) (V c (Pipeline.arrRef spec3 0)) (V c (Pipeline.arrRef spec3 1)) (V c (Pipeline.arrRef spec3 2))

/-- What grid point t writes back is block t of that function. Entry (p, q) of the block sits at row
    5000 t + p, column q of the array; the input block's entry (p, q) is the input array's entry there, and each
    one-row block's entry (0, q) is its array's entry (0, q). -/
theorem flushed_eq (c : Dev nD) (t : Fin cfg3.N) :
    (dat3 (F := Ideal) V c).flushed 3 t = ((cfg3.win 3).blk t).view.read (Elt Ideal) (G V c) := by
  show (cfg3.win 3).cut (grid3.coords t) ((dat3 V c).after 3 t) = _
  rw [after3_3, out_eq]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  refine (payload_apply _ _ _ p q).trans ?_
  have h0 : iblk3 V c 0 t (ix2 p q)
      = (V c (Pipeline.arrRef spec3 0) : S50000x128.Idx → EReal) (((cfg3.win 3).blk t).view.emb (ix2 p q)) := by
    show (V c (Pipeline.arrRef spec3 0) : S50000x128.Idx → EReal) (((cfg3.win 0).blk t).view.emb (ix2 p q)) = _
    refine congrArg _ (funext fun a => Fin.ext ?_)
    match a with
    | ⟨0, _⟩ => show win3_0.index t (0 : Fin 2) * 5000 + 1 * p.val = win3_3.index t (0 : Fin 2) * 5000 + 1 * p.val; omega
    | ⟨1, _⟩ => show win3_0.index t (1 : Fin 2) * 128 + 1 * q.val = win3_3.index t (1 : Fin 2) * 128 + 1 * q.val; omega
  have h1 : iblk3 V c 1 t (ix2 0 q)
      = (V c (Pipeline.arrRef spec3 1) : S1x128.Idx → EReal) (ix2 0 ((((cfg3.win 3).blk t).view.emb (ix2 p q)) 1)) := by
    show (V c (Pipeline.arrRef spec3 1) : S1x128.Idx → EReal) (((cfg3.win 1).blk t).view.emb (ix2 0 q)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = win3_3.index t (1 : Fin 2) * 128 + 1 * q.val; omega
  have h2 : iblk3 V c 2 t (ix2 0 q)
      = (V c (Pipeline.arrRef spec3 2) : S1x128.Idx → EReal) (ix2 0 ((((cfg3.win 3).blk t).view.emb (ix2 p q)) 1)) := by
    show (V c (Pipeline.arrRef spec3 2) : S1x128.Idx → EReal) (((cfg3.win 2).blk t).view.emb (ix2 0 q)) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  rw [h0, h1, h2]
  rfl

/-- An index of the output array is in point t's block iff each coordinate is in the block's range on its axis. -/
theorem mem_blk (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v68).slice (win3_3.rect t)).set ↔ _
  rw [View.set_slice_whole, Rect.mem_set_unit]
  exact Iff.rfl

/-- Row r of the output array lies in the block of point r / 5000, and every point writes its block back: the ten
    blocks fill the array. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : grid3.N = 10 := N_3
  obtain ⟨t, ht⟩ : ∃ t : Fin cfg3.N, t.val = (i 0).val / 5000 :=
    ⟨⟨(i 0).val / 5000, by show _ < grid3.N; rw [hN]; omega⟩, rfl⟩
  obtain ⟨-, -, -, -, -, -, e30, e31⟩ := idx_facts t
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 128 ≤ (i 1).val ∧ (i 1).val < win3_3.index t (1 : Fin 2) * 128 + 128
    omega

/-- The output array after the region: entry (p, q) is max (a(p,q) · sc(0,q) + cb(0,q), 0) of the three input arrays
    as the region finds them. -/
theorem value (c : Dev nD) :
    (dat3 (F := Ideal) V c).arrAt 3 cfg3.N
      = affRect (m := 50000) (n := 128) (V c (Pipeline.arrRef spec3 0)) (V c (Pipeline.arrRef spec3 1)) (V c (Pipeline.arrRef spec3 2)) :=
  (dat3 V c).arrAt_eq_of_cover 3 (G V c) (fun t _ => flushed_eq V c t) cover

end Cert.Bridge.RegBn3

end
-- ==== Proof.RegBn5.lean ====
/-
  One elementwise region of the kernel, read as a whole-array formula on the extended reals.

  The region walks a [50000, 128] array a in ten blocks of 5000 rows. At each block it multiplies every row,
  entry by entry, by the one row sc [1, 128], adds the one row cb [1, 128], takes the maximum with the value of
  the all-zero f32 word, and stores the block of the result. Block t of the result therefore holds, at (p, q),
  max (a(5000 t + p, q) · sc(0, q) + cb(0, q), 0); row r of the array lies in block r / 5000, the ten blocks fill
  the array, so after the region the output array is  affRect a sc cb  at every index.
-/
import proofs.«124550_j48266842472715_1_alg».proof.Proof.Gen.KernelIdeal.Frame
import proofs.«124550_j48266842472715_1_alg».proof.Proof.Spec
import Idealize.ShloMosaic.Lib.ValueIdx
import Idealize.ShloMosaic.Lib.ValueLayout
import Idealize.ShloMosaic.Lib.Pipeline.Value

set_option maxRecDepth 16384

noncomputable section

namespace Cert.Bridge.RegBn5

open Idealize.ShloMosaic Idealize.ShloMosaic.ValueIdx Idealize.ShloMosaic.TcCoe Cert.KernelIdeal Cert.KernelIdeal.Gen Cert.Layers Cert.Bridge
open Idealize.ShloMosaic.Pipeline (Dat)

/-- The offset (0, 0) is the zero offset. -/
theorem zero_off : (![0, 0] : Fin 2 → Nat) = fun _ => 0 := funext fun a => by fin_cases a <;> rfl

/-- The body's arithmetic at entry (p, q) of a block: the block's entry times the scale row's entry q, plus the shift
    row's entry q, against zero. The three reshapes are identities; a [1, 128] row repeated down 5000 rows reads its
    one row at q; the maximum against a repeated scalar is the maximum with that scalar's value. -/
theorem payload_apply (x0 : Vec Ideal S5000x128 .f32) (x1 x2 : Vec Ideal S1x128 .f32) (p : Fin 5000) (q : Fin 128) :
    k5_pay1 x0 x1 x2 (ix2 p q) = max (x0 (ix2 p q) * x1 (ix2 0 q) + x2 (ix2 0 q)) (Ideal.ofBits .f32 0x00000000#32) := by
  unfold k5_pay1
  simp only [shapeCast_self]
  show max (x0 (ix2 p q) * broadcastTo S5000x128 x1 broadcasts_S1x128_S5000x128 (ix2 p q)
      + broadcastTo S5000x128 x2 broadcasts_S1x128_S5000x128 (ix2 p q)) (Ideal.ofBits .f32 0x00000000#32) = _
  rw [broadcastTo_1b_ab_apply (a := 5000) (b := 128) x1 broadcasts_S1x128_S5000x128 p q,
    broadcastTo_1b_ab_apply (a := 5000) (b := 128) x2 broadcasts_S1x128_S5000x128 p q]

/-- The body's one store writes the whole output block, from whole-block loads: what it leaves in the output block is
    its arithmetic applied to the three input blocks. -/
theorem out_eq {F : FTy → Type} [FloatOps F] (x0 : Vec F S5000x128 .f32) (x1 x2 : Vec F S1x128 .f32) :
    out5_3 x0 x1 x2 = k5_pay1 x0 x1 x2 := by
  unfold out5_3
  rw [View.canon_unit_zero zero_off]
  simp only [View.ld_unit_zero (S := S5000x128) zero_off, View.ld_unit_zero (S := S1x128) zero_off]

/-- Where the four windows' blocks sit at grid point t, decided over the ten points: the input array's and the output
    array's block is (t, 0); each one-row operand's block is always (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- The function the output array ends holding: the scale-shift-rectify formula of the three input arrays as the
    region finds them. -/
abbrev G (c : Dev nD) : Mat 50000 128 :=
  affRect (m := 50000) (n := 128) (V c (Pipeline.arrRef spec5 0)) (V c (Pipeline.arrRef spec5 1)) (V c (Pipeline.arrRef spec5 2))

/-- What grid point t writes back is block t of that function. Entry (p, q) of the block sits at row
    5000 t + p, column q of the array; the input block's entry (p, q) is the input array's entry there, and each
    one-row block's entry (0, q) is its array's entry (0, q). -/
theorem flushed_eq (c : Dev nD) (t : Fin cfg5.N) :
    (dat5 (F := Ideal) V c).flushed 3 t = ((cfg5.win 3).blk t).view.read (Elt Ideal) (G V c) := by
  show (cfg5.win 3).cut (grid5.coords t) ((dat5 V c).after 3 t) = _
  rw [after5_3, out_eq]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  refine (payload_apply _ _ _ p q).trans ?_
  have h0 : iblk5 V c 0 t (ix2 p q)
      = (V c (Pipeline.arrRef spec5 0) : S50000x128.Idx → EReal) (((cfg5.win 3).blk t).view.emb (ix2 p q)) := by
    show (V c (Pipeline.arrRef spec5 0) : S50000x128.Idx → EReal) (((cfg5.win 0).blk t).view.emb (ix2 p q)) = _
    refine congrArg _ (funext fun a => Fin.ext ?_)
    match a with
    | ⟨0, _⟩ => show win5_0.index t (0 : Fin 2) * 5000 + 1 * p.val = win5_3.index t (0 : Fin 2) * 5000 + 1 * p.val; omega
    | ⟨1, _⟩ => show win5_0.index t (1 : Fin 2) * 128 + 1 * q.val = win5_3.index t (1 : Fin 2) * 128 + 1 * q.val; omega
  have h1 : iblk5 V c 1 t (ix2 0 q)
      = (V c (Pipeline.arrRef spec5 1) : S1x128.Idx → EReal) (ix2 0 ((((cfg5.win 3).blk t).view.emb (ix2 p q)) 1)) := by
    show (V c (Pipeline.arrRef spec5 1) : S1x128.Idx → EReal) (((cfg5.win 1).blk t).view.emb (ix2 0 q)) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = win5_3.index t (1 : Fin 2) * 128 + 1 * q.val; omega
  have h2 : iblk5 V c 2 t (ix2 0 q)
      = (V c (Pipeline.arrRef spec5 2) : S1x128.Idx → EReal) (ix2 0 ((((cfg5.win 3).blk t).view.emb (ix2 p q)) 1)) := by
    show (V c (Pipeline.arrRef spec5 2) : S1x128.Idx → EReal) (((cfg5.win 2).blk t).view.emb (ix2 0 q)) = _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  rw [h0, h1, h2]
  rfl

/-- An index of the output array is in point t's block iff each coordinate is in the block's range on its axis. -/
theorem mem_blk (t : Fin cfg5.N) (i : S50000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v89).slice (win5_3.rect t)).set ↔ _
  rw [View.set_slice_whole, Rect.mem_set_unit]
  exact Iff.rfl

/-- Row r of the output array lies in the block of point r / 5000, and every point writes its block back: the ten
    blocks fill the array. -/
theorem cover (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : grid5.N = 10 := N_5
  obtain ⟨t, ht⟩ : ∃ t : Fin cfg5.N, t.val = (i 0).val / 5000 :=
    ⟨⟨(i 0).val / 5000, by show _ < grid5.N; rw [hN]; omega⟩, rfl⟩
  obtain ⟨-, -, -, -, -, -, e30, e31⟩ := idx_facts t
  refine ⟨t, flush5_3 t, ?_⟩
  rw [mem_blk]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 128 ≤ (i 1).val ∧ (i 1).val < win5_3.index t (1 : Fin 2) * 128 + 128
    omega

/-- The output array after the region: entry (p, q) is max (a(p,q) · sc(0,q) + cb(0,q), 0) of the three input arrays
    as the region finds them. -/
theorem value (c : Dev nD) :
    (dat5 (F := Ideal) V c).arrAt 3 cfg5.N
      = affRect (m := 50000) (n := 128) (V c (Pipeline.arrRef spec5 0)) (V c (Pipeline.arrRef spec5 1)) (V c (Pipeline.arrRef spec5 2)) :=
  (dat5 V c).arrAt_eq_of_cover 3 (G V c) (fun t _ => flushed_eq V c t) cover

end Cert.Bridge.RegBn5

end
-- ==== Proof.KernelValue.lean ====
/-
  The idealized kernel program's result buffer, read back through the run's fold, is the network
  function of the argument arrays. Region by region: each matrix-product region leaves the plain
  product of its two input arrays; each host stretch between regions aggregates that product over the
  edges and prepares the layer's scale row and shift row; each elementwise region leaves
  max (agg · scale + (b · scale + be), 0), which is the reference's max (((agg + b) · scale) + be, 0)
  because the bias and the scale are real numbers under the precondition (the law of LayerLaw);
  the last stretches pool over the graphs, multiply by the output weight and add the output bias.
-/
import proofs.«124550_j48266842472715_1_alg».proof.Proof.Gen.KernelIdeal.Frame
import proofs.«124550_j48266842472715_1_alg».proof.Proof.Gen.ReferenceIdeal
import proofs.«124550_j48266842472715_1_alg».proof.Proof.Gen.Pre_finite_inputs
import proofs.«124550_j48266842472715_1_alg».proof.Proof.Shared
import proofs.«124550_j48266842472715_1_alg».proof.Proof.Net
import proofs.«124550_j48266842472715_1_alg».proof.Proof.LayerLaw
import proofs.«124550_j48266842472715_1_alg».proof.Proof.Finite
import proofs.«124550_j48266842472715_1_alg».proof.Proof.Keep
import proofs.«124550_j48266842472715_1_alg».proof.Proof.KernelHost0
import proofs.«124550_j48266842472715_1_alg».proof.Proof.KernelNorm
import proofs.«124550_j48266842472715_1_alg».proof.Proof.KernelStretch
import proofs.«124550_j48266842472715_1_alg».proof.Proof.RegMm0
import proofs.«124550_j48266842472715_1_alg».proof.Proof.RegMm2
import proofs.«124550_j48266842472715_1_alg».proof.Proof.RegMm4
import proofs.«124550_j48266842472715_1_alg».proof.Proof.RegMm6
import proofs.«124550_j48266842472715_1_alg».proof.Proof.RegBn1
import proofs.«124550_j48266842472715_1_alg».proof.Proof.RegBn3
import proofs.«124550_j48266842472715_1_alg».proof.Proof.RegBn5

set_option maxRecDepth 16384

noncomputable section

namespace Cert.Bridge.KernelValue

open Idealize.ShloMosaic Idealize.ShloMosaic.TcCoe Idealize.SL.Sem Idealize.ShloMosaic.StableHlo
open Cert.KernelIdeal Cert.KernelIdeal.Gen Cert.Bridge Cert.Layers

variable (m : (ℓ : Loc nD τ sig) → Buf (Elt Ideal) ℓ) (ρ : Dev nD → PrngReg) (c : Dev nD)

/-- The node features after the first layer. -/
def feat1 : (⟨S50000x128, .f32⟩ : BufTy).Contents (Elt Ideal) :=
  layerOf (k := 5) (withLoops (F := Ideal) (m ((c : Thread nD τ).loc main_arg1))) (withLoops (F := Ideal) (m ((c : Thread nD τ).loc main_arg2))) (m ((c : Thread nD τ).loc main_arg0)) (m ((c : Thread nD τ).loc main_arg4)) (m ((c : Thread nD τ).loc main_arg5)) (m ((c : Thread nD τ).loc main_arg10)) (m ((c : Thread nD τ).loc main_arg11))
/-- The node features after the second layer. -/
def feat2 : (⟨S50000x128, .f32⟩ : BufTy).Contents (Elt Ideal) :=
  layerOf (k := 128) (withLoops (F := Ideal) (m ((c : Thread nD τ).loc main_arg1))) (withLoops (F := Ideal) (m ((c : Thread nD τ).loc main_arg2))) (feat1 m c) (m ((c : Thread nD τ).loc main_arg6)) (m ((c : Thread nD τ).loc main_arg7)) (m ((c : Thread nD τ).loc main_arg12)) (m ((c : Thread nD τ).loc main_arg13))
/-- The node features after the third layer. -/
def feat3 : (⟨S50000x128, .f32⟩ : BufTy).Contents (Elt Ideal) :=
  layerOf (k := 128) (withLoops (F := Ideal) (m ((c : Thread nD τ).loc main_arg1))) (withLoops (F := Ideal) (m ((c : Thread nD τ).loc main_arg2))) (feat2 m c) (m ((c : Thread nD τ).loc main_arg8)) (m ((c : Thread nD τ).loc main_arg9)) (m ((c : Thread nD τ).loc main_arg14)) (m ((c : Thread nD τ).loc main_arg15))

/-- Region 0 leaves the product of the node features and the first weight. -/
theorem prod1 : W4 m ρ c (Proc.devRef .tc main_v27) = mm (m := 50000) (k := 5) (n := 128) (m ((c : Thread nD τ).loc main_arg0)) (m ((c : Thread nD τ).loc main_arg4)) :=
  (W4_arr m ρ c 2).trans ((RegMm0.value (V3 m ρ) c).trans
    (congrArg₂ (mm (m := 50000) (k := 5) (n := 128)) (KernelHost0.arg0 m ρ c) (KernelHost0.arg4 m ρ c)))

/-- Layer 1: the elementwise region leaves the layer's features. -/
theorem feat1_eq (hpre : Cert.Pre_KernelIdeal m) : W6 m ρ c (Proc.devRef .tc main_v47) = feat1 m c := by
  obtain ⟨h5, h7, h9, h10, h12, h14⟩ := Finite.real_inputs m hpre c
  have hagg : W5 m ρ c (Proc.devRef .tc main_v39) = aggregate (F := Ideal) (withLoops (F := Ideal) (m ((c : Thread nD τ).loc main_arg1))) (withLoops (F := Ideal) (m ((c : Thread nD τ).loc main_arg2))) (mm (m := 50000) (k := 5) (n := 128) (m ((c : Thread nD τ).loc main_arg0)) (m ((c : Thread nD τ).loc main_arg4))) :=
    KernelStretch.agg1 (W4 m ρ c) _ _ _ ((Keep.kept4 m ρ c main_v1 (by simp [Keep.keepList])).trans (KernelHost0.srcLoops m ρ c)) ((Keep.kept4 m ρ c main_v2 (by simp [Keep.keepList])).trans (KernelHost0.dstLoops m ρ c)) ((Keep.kept4 m ρ c main_v26 (by simp [Keep.keepList])).trans (KernelNorm.norm m ρ c)) (prod1 m ρ c)
  have hsc : W5 m ρ c (Proc.devRef .tc main_v45) = shapeCast S1x128 (scaleOf (F := Ideal) (m ((c : Thread nD τ).loc main_arg10))) Gen.shapeCasts_S128_S1x128 :=
    KernelStretch.scaleRow1 (W4 m ρ c) _ ((Keep.kept4 m ρ c main_arg10 (by simp [Keep.keepList])).trans (KernelHost0.arg10 m ρ c))
  have hcb : W5 m ρ c (Proc.devRef .tc main_v46) = shapeCast S1x128 (addf (F := Ideal) (s := S128) (φ := .f32) (mulf (F := Ideal) (s := S128) (φ := .f32) (m ((c : Thread nD τ).loc main_arg5)) (scaleOf (F := Ideal) (m ((c : Thread nD τ).loc main_arg10)))) (m ((c : Thread nD τ).loc main_arg11))) Gen.shapeCasts_S128_S1x128 :=
    KernelStretch.shiftRow1 (W4 m ρ c) _ _ _ ((Keep.kept4 m ρ c main_arg5 (by simp [Keep.keepList])).trans (KernelHost0.arg5 m ρ c)) ((Keep.kept4 m ρ c main_arg10 (by simp [Keep.keepList])).trans (KernelHost0.arg10 m ρ c)) ((Keep.kept4 m ρ c main_arg11 (by simp [Keep.keepList])).trans (KernelHost0.arg11 m ρ c))
  refine (W6_arr m ρ c 3).trans ((RegBn1.value (V5 m ρ) c).trans ?_)
  show affRect (m := 50000) (n := 128) (W5 m ρ c (Proc.devRef .tc main_v39)) (W5 m ρ c (Proc.devRef .tc main_v45)) (W5 m ρ c (Proc.devRef .tc main_v46)) = _
  rw [hagg, hsc, hcb]
  exact (layer_eq Gen.shapeCasts_S128_S1x128 _ _ _ _ h5 h10).symm

/-- Region 2 leaves the product of the layer-1 features and the next weight. -/
theorem prod2 (hpre : Cert.Pre_KernelIdeal m) : W7 m ρ c (Proc.devRef .tc main_v48) = mm (m := 50000) (k := 128) (n := 128) (feat1 m c) (m ((c : Thread nD τ).loc main_arg6)) :=
  (W7_arr m ρ c 2).trans ((RegMm2.value (V6 m ρ) c).trans
    (congrArg₂ (mm (m := 50000) (k := 128) (n := 128)) (feat1_eq m ρ c hpre) ((Keep.kept6 m ρ c main_arg6 (by simp [Keep.keepList])).trans (KernelHost0.arg6 m ρ c))))

/-- Layer 2: the elementwise region leaves the layer's features. -/
theorem feat2_eq (hpre : Cert.Pre_KernelIdeal m) : W9 m ρ c (Proc.devRef .tc main_v68) = feat2 m c := by
  obtain ⟨h5, h7, h9, h10, h12, h14⟩ := Finite.real_inputs m hpre c
  have hagg : W8 m ρ c (Proc.devRef .tc main_v60) = aggregate (F := Ideal) (withLoops (F := Ideal) (m ((c : Thread nD τ).loc main_arg1))) (withLoops (F := Ideal) (m ((c : Thread nD τ).loc main_arg2))) (mm (m := 50000) (k := 128) (n := 128) (feat1 m c) (m ((c : Thread nD τ).loc main_arg6))) :=
    KernelStretch.agg3 (W7 m ρ c) _ _ _ ((Keep.kept7 m ρ c main_v1 (by simp [Keep.keepList])).trans (KernelHost0.srcLoops m ρ c)) ((Keep.kept7 m ρ c main_v2 (by simp [Keep.keepList])).trans (KernelHost0.dstLoops m ρ c)) ((Keep.kept7 m ρ c main_v26 (by simp [Keep.keepList])).trans (KernelNorm.norm m ρ c)) (prod2 m ρ c hpre)
  have hsc : W8 m ρ c (Proc.devRef .tc main_v66) = shapeCast S1x128 (scaleOf (F := Ideal) (m ((c : Thread nD τ).loc main_arg12))) Gen.shapeCasts_S128_S1x128 :=
    KernelStretch.scaleRow3 (W7 m ρ c) _ ((Keep.kept7 m ρ c main_arg12 (by simp [Keep.keepList])).trans (KernelHost0.arg12 m ρ c))
  have hcb : W8 m ρ c (Proc.devRef .tc main_v67) = shapeCast S1x128 (addf (F := Ideal) (s := S128) (φ := .f32) (mulf (F := Ideal) (s := S128) (φ := .f32) (m ((c : Thread nD τ).loc main_arg7)) (scaleOf (F := Ideal) (m ((c : Thread nD τ).loc main_arg12)))) (m ((c : Thread nD τ).loc main_arg13))) Gen.shapeCasts_S128_S1x128 :=
    KernelStretch.shiftRow3 (W7 m ρ c) _ _ _ ((Keep.kept7 m ρ c main_arg7 (by simp [Keep.keepList])).trans (KernelHost0.arg7 m ρ c)) ((Keep.kept7 m ρ c main_arg12 (by simp [Keep.keepList])).trans (KernelHost0.arg12 m ρ c)) ((Keep.kept7 m ρ c main_arg13 (by simp [Keep.keepList])).trans (KernelHost0.arg13 m ρ c))
  refine (W9_arr m ρ c 3).trans ((RegBn3.value (V8 m ρ) c).trans ?_)
  show affRect (m := 50000) (n := 128) (W8 m ρ c (Proc.devRef .tc main_v60)) (W8 m ρ c (Proc.devRef .tc main_v66)) (W8 m ρ c (Proc.devRef .tc main_v67)) = _
  rw [hagg, hsc, hcb]
  exact (layer_eq Gen.shapeCasts_S128_S1x128 _ _ _ _ h7 h12).symm

/-- Region 4 leaves the product of the layer-2 features and the next weight. -/
theorem prod3 (hpre : Cert.Pre_KernelIdeal m) : W10 m ρ c (Proc.devRef .tc main_v69) = mm (m := 50000) (k := 128) (n := 128) (feat2 m c) (m ((c : Thread nD τ).loc main_arg8)) :=
  (W10_arr m ρ c 2).trans ((RegMm4.value (V9 m ρ) c).trans
    (congrArg₂ (mm (m := 50000) (k := 128) (n := 128)) (feat2_eq m ρ c hpre) ((Keep.kept9 m ρ c main_arg8 (by simp [Keep.keepList])).trans (KernelHost0.arg8 m ρ c))))

/-- Layer 3: the elementwise region leaves the layer's features. -/
theorem feat3_eq (hpre : Cert.Pre_KernelIdeal m) : W12 m ρ c (Proc.devRef .tc main_v89) = feat3 m c := by
  obtain ⟨h5, h7, h9, h10, h12, h14⟩ := Finite.real_inputs m hpre c
  have hagg : W11 m ρ c (Proc.devRef .tc main_v81) = aggregate (F := Ideal) (withLoops (F := Ideal) (m ((c : Thread nD τ).loc main_arg1))) (withLoops (F := Ideal) (m ((c : Thread nD τ).loc main_arg2))) (mm (m := 50000) (k := 128) (n := 128) (feat2 m c) (m ((c : Thread nD τ).loc main_arg8))) :=
    KernelStretch.agg5 (W10 m ρ c) _ _ _ ((Keep.kept10 m ρ c main_v1 (by simp [Keep.keepList])).trans (KernelHost0.srcLoops m ρ c)) ((Keep.kept10 m ρ c main_v2 (by simp [Keep.keepList])).trans (KernelHost0.dstLoops m ρ c)) ((Keep.kept10 m ρ c main_v26 (by simp [Keep.keepList])).trans (KernelNorm.norm m ρ c)) (prod3 m ρ c hpre)
  have hsc : W11 m ρ c (Proc.devRef .tc main_v87) = shapeCast S1x128 (scaleOf (F := Ideal) (m ((c : Thread nD τ).loc main_arg14))) Gen.shapeCasts_S128_S1x128 :=
    KernelStretch.scaleRow5 (W10 m ρ c) _ ((Keep.kept10 m ρ c main_arg14 (by simp [Keep.keepList])).trans (KernelHost0.arg14 m ρ c))
  have hcb : W11 m ρ c (Proc.devRef .tc main_v88) = shapeCast S1x128 (addf (F := Ideal) (s := S128) (φ := .f32) (mulf (F := Ideal) (s := S128) (φ := .f32) (m ((c : Thread nD τ).loc main_arg9)) (scaleOf (F := Ideal) (m ((c : Thread nD τ).loc main_arg14)))) (m ((c : Thread nD τ).loc main_arg15))) Gen.shapeCasts_S128_S1x128 :=
    KernelStretch.shiftRow5 (W10 m ρ c) _ _ _ ((Keep.kept10 m ρ c main_arg9 (by simp [Keep.keepList])).trans (KernelHost0.arg9 m ρ c)) ((Keep.kept10 m ρ c main_arg14 (by simp [Keep.keepList])).trans (KernelHost0.arg14 m ρ c)) ((Keep.kept10 m ρ c main_arg15 (by simp [Keep.keepList])).trans (KernelHost0.arg15 m ρ c))
  refine (W12_arr m ρ c 3).trans ((RegBn5.value (V11 m ρ) c).trans ?_)
  show affRect (m := 50000) (n := 128) (W11 m ρ c (Proc.devRef .tc main_v81)) (W11 m ρ c (Proc.devRef .tc main_v87)) (W11 m ρ c (Proc.devRef .tc main_v88)) = _
  rw [hagg, hsc, hcb]
  exact (layer_eq Gen.shapeCasts_S128_S1x128 _ _ _ _ h9 h14).symm

/-- The pooled features. -/
theorem pooled_eq (hpre : Cert.Pre_KernelIdeal m) : W13 m ρ c (Proc.devRef .tc main_v101) = meanPool (F := Ideal) (m ((c : Thread nD τ).loc main_arg3)) (feat3 m c) :=
  KernelStretch.pooled (W12 m ρ c) _ _ ((Keep.kept12 m ρ c main_arg3 (by simp [Keep.keepList])).trans (KernelHost0.arg3 m ρ c)) (feat3_eq m ρ c hpre)

/-- Region 6 leaves the product of the pooled features and the output weight. -/
theorem prodOut (hpre : Cert.Pre_KernelIdeal m) : W14 m ρ c (Proc.devRef .tc main_v102)
    = mm (m := 64) (k := 128) (n := 64) (meanPool (F := Ideal) (m ((c : Thread nD τ).loc main_arg3)) (feat3 m c)) (m ((c : Thread nD τ).loc main_arg16)) :=
  (W14_arr m ρ c 2).trans ((RegMm6.value (V13 m ρ) c).trans
    (congrArg₂ (mm (m := 64) (k := 128) (n := 64)) (pooled_eq m ρ c hpre) ((Keep.kept13 m ρ c main_arg16 (by simp [Keep.keepList])).trans (KernelHost0.arg16 m ρ c))))

/-- The result buffer at the end of the run is the network function of the arguments. -/
theorem result (hpre : Cert.Pre_KernelIdeal m) : W15 m ρ c (Proc.devRef .tc main_v105)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  KernelStretch.biased (W14 m ρ c) _ _ (prodOut m ρ c hpre) ((Keep.kept14 m ρ c main_arg17 (by simp [Keep.keepList])).trans (KernelHost0.arg17 m ρ c))

end Cert.Bridge.KernelValue

end
-- ==== Proof.RefNet.lean ====
/-
  The reference's composed term is the network function. The term the reference's run ends with is spelt, piece
  by piece, as the network function is — the edge lists with self-loops, the degree normalisation, the aggregation,
  the three layers, the mean pooling, the output product and bias — except that each of its four matrix products
  is a general product contracting the left matrix's columns with the right one's rows, where the network function
  has the plain index formula: entry (p, q) the sum over j of a(p, j) · w(j, q). The two are equal entry by entry;
  after rewriting the four products the two sides are the same term.
-/
import proofs.«124550_j48266842472715_1_alg».proof.Proof.Gen.ReferenceIdeal
import proofs.«124550_j48266842472715_1_alg».proof.Proof.RefRunPatched
import proofs.«124550_j48266842472715_1_alg».proof.Proof.Net

noncomputable section

namespace Cert.Bridge.RefNet

open Idealize.ShloMosaic Idealize.ShloMosaic.TcCoe Cert.ReferenceIdeal Cert.ReferenceIdeal.Gen Cert.Bridge Cert.Layers

/-- The reference's composed term is the network function of the eighteen arguments: its four general products
    are the plain index formula, and everything else is spelt alike. -/
theorem result_eq (m : (ℓ : Loc nD τ sig) → Buf (Elt Ideal) ℓ) (c : Dev nD) :
    Cert.ReferenceIdeal.ValueP.res_main_v120 (F := Ideal) m c
      = net (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17)) := by
  unfold Cert.ReferenceIdeal.ValueP.res_main_v120
  rw [hostMm_eq dot_S64x128_S128x64_S64x64_1_0_0_1_n_n dot_S64x128_S128x64_S64x64_1_0_0_1_n_n.wf rfl,
    hostMm_eq dot_S50000x128_S128x128_S50000x128_1_0_0_1_n_n dot_S50000x128_S128x128_S50000x128_1_0_0_1_n_n.wf rfl,
    hostMm_eq dot_S50000x128_S128x128_S50000x128_1_0_0_1_n_n dot_S50000x128_S128x128_S50000x128_1_0_0_1_n_n.wf rfl,
    hostMm_eq dot_S50000x5_S5x128_S50000x128_1_0_0_1_n_n dot_S50000x5_S5x128_S50000x128_1_0_0_1_n_n.wf rfl]
  rfl

end Cert.Bridge.RefNet

end
-- ==== Proof.lean ====
/-
  The proof of `Cert.Claim`: a three-layer graph convolution network (per layer: a dense product on
  the matrix unit, a normalised aggregation over the edges with one self-loop per node, then bias,
  batch-norm scale and shift, and the rectifier on the vector unit), mean pooling over the graphs and
  an output projection, against its plain reference.

  The three frames: the two kernel programs' frames are the generated ones (seven regions among host
  stretches); the reference's frame is its run with the result dropped.  `preserves` is `True`: the
  idealization rewrote nothing.

  `algebraic`: both programs' results are ONE function `Cert.Bridge.net` of the argument arrays.
  On the kernel's side every matrix-product region leaves the plain sum-of-products of its two
  arrays and every elementwise region max (agg · s + (b · s + be), 0); the reference computes
  max (((agg + b) · s) + be, 0) with the same s = g · rsqrt (1 + eps).  On the extended reals
  (a + b) · s = a · s + b · s for EVERY a once b and s are real numbers, which the precondition gives
  for the biases and the scales (the literal under the rsqrt is a positive real); addition is
  associative outright.  Everything else — the degree count, its inverse square root, the gathers,
  the segment sums, the pooling — is spelt identically by the two programs and is carried as named
  functions that are never opened.
-/
import proofs.«124550_j48266842472715_1_alg».proof.Defs
import proofs.«124550_j48266842472715_1_alg».proof.Proof.Gen.Kernel
import proofs.«124550_j48266842472715_1_alg».proof.Proof.Gen.Kernel.Frame
import proofs.«124550_j48266842472715_1_alg».proof.Proof.Gen.KernelIdeal
import proofs.«124550_j48266842472715_1_alg».proof.Proof.Gen.KernelIdeal.Frame
import proofs.«124550_j48266842472715_1_alg».proof.Proof.Gen.ReferenceIdeal
import proofs.«124550_j48266842472715_1_alg».proof.Proof.Gen.Pre_finite_inputs
import proofs.«124550_j48266842472715_1_alg».proof.Proof.KernelRun
import proofs.«124550_j48266842472715_1_alg».proof.Proof.KernelValue
import proofs.«124550_j48266842472715_1_alg».proof.Proof.RefRunPatched
import proofs.«124550_j48266842472715_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at the network function of the (agreeing) arguments. -/
theorem algebraic : Cert.algebraic_KernelIdeal_ReferenceIdeal := by
  intro m ρ m' ρ' hpre hagree
  refine ⟨fun c => Cert.Bridge.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.Bridge.KernelValue.result m ρ c hpre), (h c).2⟩)
      (Cert.Bridge.KernelRun.run_value m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13, e14, e15, e16, e17⟩ := hagree c
    rw [Cert.Bridge.RefNet.result_eq m' c, e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
